-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x500000 32) (main_arg2 : FVec F S128x256 .f32) (main_arg3 : FVec F S256 .f32) (main_arg4 : FVec F S256x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x500000 : Shape := ⟨2, ![1, 500000]⟩
abbrev S500000 : Shape := ⟨1, ![500000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x256 : Shape := ⟨2, ![1, 256]⟩
abbrev S100000x64 : Shape := ⟨2, ![100000, 64]⟩
abbrev S5000x128 : Shape := ⟨2, ![5000, 128]⟩
abbrev S5000x64 : Shape := ⟨2, ![5000, 64]⟩
abbrev S5000x256 : Shape := ⟨2, ![5000, 256]⟩
abbrev S600000x64 : Shape := ⟨2, ![600000, 64]⟩
abbrev S1x64 : Shape := ⟨2, ![1, 64]⟩

abbrev nBuf : Space → Nat
  | .hbm => 87
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S100000, .i32⟩
  | .hbm, ⟨7, _⟩ => ⟨S1x500000, .i32⟩
  | .hbm, ⟨8, _⟩ => ⟨S500000, .i32⟩
  | .hbm, ⟨9, _⟩ => ⟨S600000, .i32⟩
  | .hbm, ⟨10, _⟩ => ⟨S1x500000, .i32⟩
  | .hbm, ⟨11, _⟩ => ⟨S500000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S100000, .f32⟩
  | .hbm, ⟨17, _⟩ => ⟨S600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000, .f32⟩
  | .hbm, ⟨48, _⟩ => ⟨S600000, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S600000x1, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S100000x128, .f32⟩
  | .hbm, ⟨63, _⟩ => ⟨S600000x1, .i32⟩
  | .hbm, ⟨64, _⟩ => ⟨S100000x128, .f32⟩
  | .hbm, ⟨65, _⟩ => ⟨S1x256, .f32⟩
  | .hbm, ⟨66, _⟩ => ⟨S100000x64, .bf16⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x64, .bf16⟩
  | .hbm, ⟨76, _⟩ => ⟨S600000x64, .f32⟩
  | .hbm, ⟨77, _⟩ => ⟨S600000x1, .f32⟩
  | .hbm, ⟨78, _⟩ => ⟨S600000x64, .f32⟩
  | .hbm, ⟨79, _⟩ => ⟨S600000x64, .f32⟩
  | .hbm, ⟨80, _⟩ => ⟨S_, .f32⟩
  | .hbm, ⟨81, _⟩ => ⟨S100000x64, .f32⟩
  | .hbm, ⟨82, _⟩ => ⟨S600000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S5000x64, .bf16⟩
  | .local _ .vmem, ⟨6, _⟩ => ⟨S5000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x500000_S1x500000_0_0 : S2x500000.Slices ![0, 0] S1x500000
  shapeCasts_S1x500000_S500000 : S1x500000.ShapeCasts S500000
  concatenates_S500000_S100000_S600000_d0 : Shape.Concatenates [S500000, S100000] S600000 0
  slices_S2x500000_S1x500000_1_0 : S2x500000.Slices ![1, 0] S1x500000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x500000 : Shape := ⟨2, ![1, 500000]⟩
abbrev S500000 : Shape := ⟨1, ![500000]⟩
abbrev S600000 : Shape := ⟨1, ![600000]⟩
abbrev S_ : Shape := ⟨0, ![]⟩
abbrev S600000x1 : Shape := ⟨2, ![600000, 1]⟩
abbrev S100000x256 : Shape := ⟨2, ![100000, 256]⟩
abbrev S600000x256 : Shape := ⟨2, ![600000, 256]⟩
abbrev S1x256 : Shape := ⟨2, ![1, 256]⟩
abbrev S100000x64 : Shape := ⟨2, ![100000, 64]⟩
abbrev S600000x64 : Shape := ⟨2, ![600000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S100000, .i32⟩
  | .hbm, ⟨7, _⟩ => ⟨S1x500000, .i32⟩
  | .hbm, ⟨8, _⟩ => ⟨S500000, .i32⟩
  | .hbm, ⟨9, _⟩ => ⟨S600000, .i32⟩
  | .hbm, ⟨10, _⟩ => ⟨S1x500000, .i32⟩
  | .hbm, ⟨11, _⟩ => ⟨S500000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S100000, .f32⟩
  | .hbm, ⟨17, _⟩ => ⟨S600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000, .f32⟩
  | .hbm, ⟨48, _⟩ => ⟨S600000, .f32⟩
  | .hbm, ⟨49, _⟩ => ⟨S100000x256, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x256, .f32⟩
  | .hbm, ⟨59, _⟩ => ⟨S600000x1, .f32⟩
  | .hbm, ⟨60, _⟩ => ⟨S600000x256, .f32⟩
  | .hbm, ⟨61, _⟩ => ⟨S600000x256, .f32⟩
  | .hbm, ⟨62, _⟩ => ⟨S_, .f32⟩
  | .hbm, ⟨63, _⟩ => ⟨S100000x256, .f32⟩
  | .hbm, ⟨64, _⟩ => ⟨S600000x1, .i32⟩
  | .hbm, ⟨65, _⟩ => ⟨S100000x256, .f32⟩
  | .hbm, ⟨66, _⟩ => ⟨S1x256, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S100000x256, .f32⟩
  | .hbm, ⟨71, _⟩ => ⟨S100000x256, .f32⟩
  | .hbm, ⟨72, _⟩ => ⟨S100000x64, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x64, .f32⟩
  | .hbm, ⟨82, _⟩ => ⟨S600000x1, .f32⟩
  | .hbm, ⟨83, _⟩ => ⟨S600000x64, .f32⟩
  | .hbm, ⟨84, _⟩ => ⟨S600000x64, .f32⟩
  | .hbm, ⟨85, _⟩ => ⟨S_, .f32⟩
  | .hbm, ⟨86, _⟩ => ⟨S100000x64, .f32⟩
  | .hbm, ⟨87, _⟩ => ⟨S600000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S100000_S600000_d0 : Shape.Concatenates [S500000, S100000] S600000 0
  slices_S2x500000_S1x500000_1_0 : S2x500000.Slices ![1, 0] S1x500000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x64_S100000x64_1_0_0_1_n_n_wf : DotDims.WF S100000x256 S256x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

class Facts : Prop extends Facts₀ where

variable [Facts]
-- ==== Proof.KernelPayload.lean ====
import proofs.«124716_j10282151706797_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal

/-- The first product, into the zero accumulator, read at row `r` and column `j`: the sum over the contracted
    coordinate of the products of the entries. -/
theorem mm1_apply (A : FVec Ideal S5000x128 .bf16) (B : FVec Ideal S128x256 .bf16) (r : Fin 5000) (j : Fin 256) :
    matmul (F := Ideal) dot_S5000x128_S128x256_S5000x256_1_0_0_1_n_n none A B
        (constant (F := Ideal) S5000x256 .f32 0x00000000#32) (ix2 r j)
      = ∑ k : Fin 128, A (ix2 r k) * B (ix2 k j) := by
  show FloatOps.matmul _ none A B _ (ix2 r j) = _
  rw [Ideal.matmul_constant_zero_apply,
    ← Equiv.sum_comp (contrEquiv1 dot_S5000x128_S128x256_S5000x256_1_0_0_1_n_n 128 rfl rfl).symm]
  refine Finset.sum_congr rfl fun c _ => ?_
  have c2 := contrEquiv1_symm_val dot_S5000x128_S128x256_S5000x256_1_0_0_1_n_n 128 rfl rfl c
  have l2 : dot_S5000x128_S128x256_S5000x256_1_0_0_1_n_n.lhsIdx (ix2 r j)
      ((contrEquiv1 dot_S5000x128_S128x256_S5000x256_1_0_0_1_n_n 128 rfl rfl).symm c) = ix2 r c := by
    funext ax; apply Fin.ext
    match ax with
    | ⟨0, _⟩ => simp [DotDims.lhsIdx, dot_S5000x128_S128x256_S5000x256_1_0_0_1_n_n]; rfl
    | ⟨1, _⟩ => simp [DotDims.lhsIdx, dot_S5000x128_S128x256_S5000x256_1_0_0_1_n_n]; exact c2
  have r2 : dot_S5000x128_S128x256_S5000x256_1_0_0_1_n_n.rhsIdx (ix2 r j)
      ((contrEquiv1 dot_S5000x128_S128x256_S5000x256_1_0_0_1_n_n 128 rfl rfl).symm c) = ix2 c j := by
    funext ax; apply Fin.ext
    match ax with
    | ⟨0, _⟩ => simp [DotDims.rhsIdx, dot_S5000x128_S128x256_S5000x256_1_0_0_1_n_n]; exact c2
    | ⟨1, _⟩ => simp [DotDims.rhsIdx, dot_S5000x128_S128x256_S5000x256_1_0_0_1_n_n]; rfl
  rw [l2, r2]

/-- The second product, into the zero accumulator, read at row `r` and column `j`: the sum over the contracted
    coordinate of the products of the entries. -/
theorem mm2_apply (A : FVec Ideal S5000x256 .bf16) (B : FVec Ideal S256x64 .bf16) (r : Fin 5000) (j : Fin 64) :
    matmul (F := Ideal) dot_S5000x256_S256x64_S5000x64_1_0_0_1_n_n none A B
        (constant (F := Ideal) S5000x64 .f32 0x00000000#32) (ix2 r j)
      = ∑ k : Fin 256, A (ix2 r k) * B (ix2 k j) := by
  show FloatOps.matmul _ none A B _ (ix2 r j) = _
  rw [Ideal.matmul_constant_zero_apply,
    ← Equiv.sum_comp (contrEquiv1 dot_S5000x256_S256x64_S5000x64_1_0_0_1_n_n 256 rfl rfl).symm]
  refine Finset.sum_congr rfl fun c _ => ?_
  have c2 := contrEquiv1_symm_val dot_S5000x256_S256x64_S5000x64_1_0_0_1_n_n 256 rfl rfl c
  have l2 : dot_S5000x256_S256x64_S5000x64_1_0_0_1_n_n.lhsIdx (ix2 r j)
      ((contrEquiv1 dot_S5000x256_S256x64_S5000x64_1_0_0_1_n_n 256 rfl rfl).symm c) = ix2 r c := by
    funext ax; apply Fin.ext
    match ax with
    | ⟨0, _⟩ => simp [DotDims.lhsIdx, dot_S5000x256_S256x64_S5000x64_1_0_0_1_n_n]; rfl
    | ⟨1, _⟩ => simp [DotDims.lhsIdx, dot_S5000x256_S256x64_S5000x64_1_0_0_1_n_n]; exact c2
  have r2 : dot_S5000x256_S256x64_S5000x64_1_0_0_1_n_n.rhsIdx (ix2 r j)
      ((contrEquiv1 dot_S5000x256_S256x64_S5000x64_1_0_0_1_n_n 256 rfl rfl).symm c) = ix2 c j := by
    funext ax; apply Fin.ext
    match ax with
    | ⟨0, _⟩ => simp [DotDims.rhsIdx, dot_S5000x256_S256x64_S5000x64_1_0_0_1_n_n]; exact c2
    | ⟨1, _⟩ => simp [DotDims.rhsIdx, dot_S5000x256_S256x64_S5000x64_1_0_0_1_n_n]; rfl
  rw [l2, r2]

/-- The kernel body's stored value read at row `r` and column `o`: the changes of float format and the same-shape
    casts are identities on extended reals, the bias row is repeated down the rows, and each product into the zero
    accumulator is the sum over its contracted coordinate. -/
theorem pay_apply (a : Vec Ideal S5000x128 .f32) (w1 : Vec Ideal S128x256 .f32) (b : Vec Ideal S1x256 .f32)
    (w2 : Vec Ideal S256x64 .f32) (r : Fin 5000) (o : Fin 64) :
    Cert.KernelIdeal.Gen.k0_pay1 (F := Ideal) a w1 b w2 (ix2 r o)
      = ∑ j : Fin 256, max ((∑ k : Fin 128, a (ix2 r k) * w1 (ix2 k j)) + b (ix2 (0 : Fin 1) j)) 0 * w2 (ix2 j o) := by
  unfold Gen.k0_pay1
  refine (mm2_apply _ _ r o).trans ?_
  refine Finset.sum_congr rfl fun j _ => ?_
  refine congrArg (· * w2 (ix2 j o)) ?_
  show max (matmul (F := Ideal) dot_S5000x128_S128x256_S5000x256_1_0_0_1_n_n none _ _
        (constant (F := Ideal) S5000x256 .f32 0x00000000#32) (ix2 r j)
      + broadcastTo S5000x256 (shapeCast S1x256 b _) _ (ix2 r j))
      (Ideal.ofBits .f32 0x00000000#32) = _
  rw [mm1_apply, Ideal.ofBits_zero_f32, broadcastTo_1b_ab_apply, shapeCast_self, shapeCast_self]
  rfl

end Cert.KernelIdeal.Payload

end
-- ==== Proof.Fused.lean ====
/-
  The two-layer projection the kernel computes on every row of its input, as one function of whole arrays:
  out[n, o] = Σ_j max(Σ_k A[n, k]·W1[k, j] + B[0, j], 0) · W2[j, o]  over the extended reals.
-/
import proofs.«124716_j10282151706797_2_alg».proof.KernelIdeal
import Idealize.ShloMosaic.Lib.ValueIdx

noncomputable section

open scoped BigOperators

namespace Cert.KernelIdeal.Blocks

open Idealize.ShloMosaic Idealize.ShloMosaic.ValueIdx Cert.KernelIdeal

/-- The two-layer projection of every row: out[n, o] = Σ_j max(Σ_k A[n, k]·W1[k, j] + B[0, j], 0) · W2[j, o]. -/
def fused (A : S100000x128.Idx → EReal) (W1 : S128x256.Idx → EReal) (B : S1x256.Idx → EReal) (W2 : S256x64.Idx → EReal) :
    S100000x64.Idx → EReal :=
  fun i => ∑ j : Fin 256, max ((∑ k : Fin 128, A (ix2 (⟨(i 0).val, idx2_lt0 i⟩ : Fin 100000) k) * W1 (ix2 k j))
    + B (ix2 (0 : Fin 1) j)) 0 * W2 (ix2 j (⟨(i 1).val, idx2_lt1 i⟩ : Fin 64))

end Cert.KernelIdeal.Blocks

end
-- ==== Proof.KernelBlocks.lean ====
/-
  The fused projection kernel, from blocks to the whole array.

  The kernel walks 20 blocks of 5000 rows. At block t it reads rows 5000·t … 5000·t + 4999 of the aggregated
  features A : [100000, 128], the whole first weight W1 : [128, 256], the bias row B : [1, 256] and the whole second
  weight W2 : [256, 64], and writes rows 5000·t … 5000·t + 4999 of the output. Row n of the output depends on row n
  of A only:  out[n, o] = Σ_j max(Σ_k A[n, k]·W1[k, j] + B[0, j], 0) · W2[j, o].  The blocks tile the output, so
  after the last block the output array is that one function of the four arrays.
-/
import proofs.«124716_j10282151706797_2_alg».proof.Proof.Gen.KernelIdeal.Frame
import proofs.«124716_j10282151706797_2_alg».proof.Proof.KernelPayload
import proofs.«124716_j10282151706797_2_alg».proof.Proof.Fused
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The body's stored value at any index of the block, by its two coordinates. -/
theorem pay_at (a : Vec Ideal S5000x128 .f32) (w1 : Vec Ideal S128x256 .f32) (b : Vec Ideal S1x256 .f32) (w2 : Vec Ideal S256x64 .f32)
    (y : S5000x64.Idx) :
    Gen.k0_pay1 (F := Ideal) a w1 b w2 y
      = ∑ j : Fin 256, max ((∑ k : Fin 128, a (ix2 (⟨(y 0).val, idx2_lt0 y⟩ : Fin 5000) k) * w1 (ix2 k j)) + b (ix2 (0 : Fin 1) j)) 0
          * w2 (ix2 j (⟨(y 1).val, idx2_lt1 y⟩ : Fin 64)) := by
  obtain ⟨r, o, rfl⟩ : ∃ (r : Fin 5000) (o : Fin 64), y = ix2 r o := ⟨y 0, y 1, eq_ix2 y⟩
  exact Cert.KernelIdeal.Payload.pay_apply a w1 b w2 r o

/-- The printed index maps over the grid: the row-blocked windows sit at block row t, column block 0; the whole
    windows at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Block t of a row-blocked [100000, 128] array is its rows 5000·t … 5000·t + 4999. -/
theorem rows_block (t : Fin cfg0.N) (A : S100000x128.Idx → EReal) (x : S5000x128.Idx) (k : S100000x128.Idx)
    (hk0 : (k 0).val = 5000 * t.val + (x 0).val) (hk1 : (k 1).val = (x 1).val) :
    (((cfg0.win 0).blk t).view.read (Elt Ideal) A : S5000x128.Idx → EReal) x = A k := by
  obtain ⟨e0, e1, -⟩ := index_facts t
  rw [View.read_apply]
  refine congrArg A ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The first weight's one block is the whole array. -/
theorem w1_block (t : Fin cfg0.N) (A : S128x256.Idx → EReal) (x : S128x256.Idx) :
    (((cfg0.win 1).blk t).view.read (Elt Ideal) A : S128x256.Idx → EReal) x = A x := by
  obtain ⟨-, -, e0, e1, -⟩ := index_facts t
  rw [View.read_apply]
  refine congrArg A ?_
  funext a
  apply Fin.ext
  match a with
  | ⟨0, _⟩ => show win0_1.index t 0 * 128 + 1 * (x 0).val = (x 0).val; rw [e0]; omega
  | ⟨1, _⟩ => show win0_1.index t 1 * 256 + 1 * (x 1).val = (x 1).val; rw [e1]; omega

/-- The bias row's one block is the whole row. -/
theorem bias_block (t : Fin cfg0.N) (A : S1x256.Idx → EReal) (x : S1x256.Idx) :
    (((cfg0.win 2).blk t).view.read (Elt Ideal) A : S1x256.Idx → EReal) x = A x := by
  obtain ⟨-, -, -, -, e0, e1, -⟩ := index_facts t
  rw [View.read_apply]
  refine congrArg A ?_
  funext a
  apply Fin.ext
  match a with
  | ⟨0, _⟩ => show win0_2.index t 0 * 1 + 1 * (x 0).val = (x 0).val; rw [e0]; omega
  | ⟨1, _⟩ => show win0_2.index t 1 * 256 + 1 * (x 1).val = (x 1).val; rw [e1]; omega

/-- The second weight's one block is the whole array. -/
theorem w2_block (t : Fin cfg0.N) (A : S256x64.Idx → EReal) (x : S256x64.Idx) :
    (((cfg0.win 3).blk t).view.read (Elt Ideal) A : S256x64.Idx → EReal) x = A x := by
  obtain ⟨-, -, -, -, -, -, e0, e1, -⟩ := index_facts t
  rw [View.read_apply]
  refine congrArg A ?_
  funext a
  apply Fin.ext
  match a with
  | ⟨0, _⟩ => show win0_3.index t 0 * 256 + 1 * (x 0).val = (x 0).val; rw [e0]; omega
  | ⟨1, _⟩ => show win0_3.index t 1 * 64 + 1 * (x 1).val = (x 1).val; rw [e1]; omega

/-- The fused projection of a block of rows is the block of rows of the fused projection: when the four vectors the
    body loads are block t's rows of A and the whole of W1, B and W2, the body's value at (r, o) is the fused
    projection at (5000·t + r, o). -/
theorem fused_block (t : Fin cfg0.N) (A : S100000x128.Idx → EReal) (W1 : S128x256.Idx → EReal) (B : S1x256.Idx → EReal)
    (W2 : S256x64.Idx → EReal)
    (a : Vec Ideal S5000x128 .f32) (w1 : Vec Ideal S128x256 .f32) (b : Vec Ideal S1x256 .f32) (w2 : Vec Ideal S256x64 .f32)
    (ha : ∀ (z : S5000x128.Idx) (k : S100000x128.Idx), (k 0).val = 5000 * t.val + (z 0).val → (k 1).val = (z 1).val → a z = A k)
    (hw1 : ∀ z, w1 z = W1 z) (hb : ∀ z, b z = B z) (hw2 : ∀ z, w2 z = W2 z)
    (y : S5000x64.Idx) (i : S100000x64.Idx)
    (hi0 : (i 0).val = 5000 * t.val + (y 0).val) (hi1 : (i 1).val = (y 1).val) :
    Gen.k0_pay1 (F := Ideal) a w1 b w2 y = fused A W1 B W2 i := by
  refine (pay_at a w1 b w2 y).trans ?_
  unfold fused
  refine Finset.sum_congr rfl fun j _ => ?_
  have hcol : (ix2 j (⟨(y 1).val, idx2_lt1 y⟩ : Fin 64) : S256x64.Idx) = ix2 j (⟨(i 1).val, idx2_lt1 i⟩ : Fin 64) := by
    funext d
    apply Fin.ext
    match d with
    | ⟨0, _⟩ => rfl
    | ⟨1, _⟩ => exact hi1.symm
  rw [hw2, hb, hcol]
  congr 2
  congr 1
  refine Finset.sum_congr rfl fun k _ => ?_
  rw [hw1, ha _ (ix2 (⟨(i 0).val, idx2_lt0 i⟩ : Fin 100000) k) hi0 rfl]

/-- The four input windows' blocks at point t, read off the arrays as the kernel finds them. -/
theorem rows_iblk (c : Dev nD) (t : Fin cfg0.N) (z : S5000x128.Idx) (k : S100000x128.Idx)
    (h0 : (k 0).val = 5000 * t.val + (z 0).val) (h1 : (k 1).val = (z 1).val) : iblk m c 0 t z = V m c main_v44 k := by
  unfold iblk
  exact rows_block t _ z k h0 h1

theorem w1_iblk (c : Dev nD) (t : Fin cfg0.N) (z : S128x256.Idx) : iblk m c 1 t z = V m c main_arg2 z := by
  unfold iblk
  exact w1_block t _ z

theorem bias_iblk (c : Dev nD) (t : Fin cfg0.N) (z : S1x256.Idx) : iblk m c 2 t z = V m c main_v45 z := by
  unfold iblk
  exact bias_block t _ z

theorem w2_iblk (c : Dev nD) (t : Fin cfg0.N) (z : S256x64.Idx) : iblk m c 3 t z = V m c main_arg4 z := by
  unfold iblk
  exact w2_block t _ z

/-- What block t writes back is block t of the fused projection of the four arrays as the kernel finds them. -/
theorem flushed_eq (c : Dev nD) (t : Fin cfg0.N) :
    (dats m 0 c).flushed 4 t = ((cfg0.win 4).blk t).view.read (Elt Ideal)
      (fused (V m c main_v44) (V m c main_arg2) (V m c main_v45) (V m c main_arg4)) := by
  show (cfg0.win 4).cut (grid0.coords t) ((dats m 0 c).after 4 t) = _
  rw [after0_4]
  unfold out0_4
  rw [View.canon_unit_zero zero_offsets]
  simp only [View.ld_unit_zero (S := S5000x128) zero_offsets, View.ld_unit_zero (S := S128x256) zero_offsets,
    View.ld_unit_zero (S := S1x256) zero_offsets, View.ld_unit_zero (S := S256x64) zero_offsets]
  obtain ⟨-, -, -, -, -, -, -, -, e0, e1⟩ := index_facts t
  funext y
  rw [View.read_apply, cast_eq]
  dsimp only [Pipeline.Window.cut]
  exact fused_block t (V m c main_v44) (V m c main_arg2) (V m c main_v45) (V m c main_arg4)
    (iblk m c 0 t) (iblk m c 1 t) (iblk m c 2 t) (iblk m c 3 t)
    (rows_iblk m c t) (w1_iblk m c t) (bias_iblk m c t) (w2_iblk m c t)
    ((cfg0.win 4).xinj (grid0.coords t) y) _
    (by show win0_4.index t 0 * 5000 + 1 * (y 0).val = 5000 * t.val + (y 0).val; rw [e0]; omega)
    (by show win0_4.index t 1 * 64 + 1 * (y 1).val = (y 1).val; rw [e1]; omega)

/-- An output index is in block t exactly when its row is among rows 5000·t … 5000·t + 4999. -/
theorem mem_block (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v46).slice (win0_4.rect t)).set ↔ _
  rw [View.set_slice_whole, Rect.mem_set_unit]
  exact Iff.rfl

/-- Every output index is in the block of its row's quotient by 5000. -/
theorem covered (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_4 _, ?_⟩
  rw [mem_block]
  obtain ⟨-, -, -, -, -, -, -, -, e0, e1⟩ := index_facts ⟨(i 0).val / 5000, by rw [hN]; omega⟩
  intro a
  match a with
  | ⟨0, _⟩ =>
    show win0_4.index _ 0 * 5000 ≤ (i 0).val ∧ (i 0).val < win0_4.index _ 0 * 5000 + 5000
    rw [e0]; show (i 0).val / 5000 * 5000 ≤ (i 0).val ∧ (i 0).val < (i 0).val / 5000 * 5000 + 5000; omega
  | ⟨1, _⟩ =>
    show win0_4.index _ 1 * 64 ≤ (i 1).val ∧ (i 1).val < win0_4.index _ 1 * 64 + 64
    rw [e1]; omega

/-- After the last block the output array is the fused projection of the four arrays as the kernel finds them. -/
theorem final (c : Dev nD) :
    (dats m 0 c).arrAt 4 cfg0.N = fused (V m c main_v44) (V m c main_arg2) (V m c main_v45) (V m c main_arg4) :=
  (dats m 0 c).arrAt_eq_of_cover 4 _ (fun t _ => flushed_eq m c t) covered

end Cert.KernelIdeal.Blocks

end
-- ==== Proof.KernelTerms.lean ====
/-
  The host side of the kernel program, as pure terms of the arguments.

  Before the kernel runs, the program builds from the edge table E : [2, 500000] the sources and destinations of
  600000 edges (one self loop per node appended), the degree of every node as a sum of ones at the destinations, the
  weight dinv = 1/sqrt(max(deg, 1)) where the degree is positive and 0 elsewhere, the edge weight
  norm[e] = dinv[src e] · dinv[dst e], and the aggregated features  agg[n, ·] = Σ_{e : dst e = n} x[src e, ·] · norm[e].
  After the kernel it aggregates the kernel's output rows in the same way and adds the last bias.
-/
import proofs.«124716_j10282151706797_2_alg».proof.KernelIdeal
import Idealize.ShloMosaic.PureOps.Ideal
import Idealize.ShloMosaic.Lib.ValueIdx

set_option maxRecDepth 16384

noncomputable section

namespace Cert.KernelIdeal.Host

open Idealize.ShloMosaic Idealize.SL.Sem
open Cert.KernelIdeal

variable {F : FTy → Type} [FloatOps F] [Facts]
open Facts₀ Facts

/-- The node numbers 0 … 99999 (the self loops' ends). -/
def nodeIota : (⟨S100000, .i32⟩ : BufTy).Contents (Elt F) := iotaInDim S100000 32 0

/-- The sources of the 600000 edges: row 0 of the edge table, then the self loops. -/
def srcIdx (x1 : (⟨S2x500000, .i32⟩ : BufTy).Contents (Elt F)) : (⟨S600000, .i32⟩ : BufTy).Contents (Elt F) :=
  concatenate S600000 0 [⟨S500000, shapeCast S500000 (extractStridedSlice S1x500000 ![0, 0] x1 slices_S2x500000_S1x500000_0_0) shapeCasts_S1x500000_S500000⟩, ⟨S100000, nodeIota (F := F)⟩] concatenates_S500000_S100000_S600000_d0

/-- The destinations of the 600000 edges: row 1 of the edge table, then the self loops. -/
def dstIdx (x1 : (⟨S2x500000, .i32⟩ : BufTy).Contents (Elt F)) : (⟨S600000, .i32⟩ : BufTy).Contents (Elt F) :=
  concatenate S600000 0 [⟨S500000, shapeCast S500000 (extractStridedSlice S1x500000 ![1, 0] x1 slices_S2x500000_S1x500000_1_0) shapeCasts_S1x500000_S500000⟩, ⟨S100000, nodeIota (F := F)⟩] concatenates_S500000_S100000_S600000_d0

/-- The destinations as the one-column index table a scatter takes. -/
def dstCol (x1 : (⟨S2x500000, .i32⟩ : BufTy).Contents (Elt F)) : (⟨S600000x1, .i32⟩ : BufTy).Contents (Elt F) :=
  broadcastInDim S600000x1 ![0] bcast_S600000_S600000x1_0 (dstIdx (F := F) x1)

/-- The degree of every node, self loop counted: ones summed at the destinations over zeros. -/
def deg (x1 : (⟨S2x500000, .i32⟩ : BufTy).Contents (Elt F)) : (⟨S100000, .f32⟩ : BufTy).Contents (Elt F) :=
  Host.scatterAdd (F := F) scatter_S100000_S600000x1_S600000_n_0_0_1
    (broadcastInDim S100000 ![] bcast_S_S100000 (constant (F := F) S_ .f32 0x00000000#32))
    (dstCol (F := F) x1)
    (broadcastInDim S600000 ![] bcast_S_S600000 (constant (F := F) S_ .f32 0x3F800000#32))

/-- 1/sqrt(max(deg, 1)) where the degree is positive, zero elsewhere. -/
def dinv (x1 : (⟨S2x500000, .i32⟩ : BufTy).Contents (Elt F)) : (⟨S100000, .f32⟩ : BufTy).Contents (Elt F) :=
  select (cmpf (F := F) .ogt (deg (F := F) x1) (broadcastInDim S100000 ![] bcast_S_S100000 (constant (F := F) S_ .f32 0x00000000#32)))
    (Host.rsqrt (F := F) (maximumf (F := F) (deg (F := F) x1) (broadcastInDim S100000 ![] bcast_S_S100000 (constant (F := F) S_ .f32 0x3F800000#32))))
    (broadcastInDim S100000 ![] bcast_S_S100000 (id (constant (F := F) S_ .f32 0x00000000#32)))

/-- An index list with its negative entries moved up by the node count, as the one-column index table a gather takes. -/
def wrapCol (v : (⟨S600000, .i32⟩ : BufTy).Contents (Elt F)) : (⟨S600000x1, .i32⟩ : BufTy).Contents (Elt F) :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- The weight of every edge: dinv at its source times dinv at its destination. -/
def norm (x1 : (⟨S2x500000, .i32⟩ : BufTy).Contents (Elt F)) : (⟨S600000, .f32⟩ : BufTy).Contents (Elt F) :=
  mulf (F := F)
    (Host.gather gather_S100000_S600000x1_S600000_n_0_n_n_0_1_1 (dinv (F := F) x1) (wrapCol (F := F) (srcIdx (F := F) x1)))
    (Host.gather gather_S100000_S600000x1_S600000_n_0_n_n_0_1_1 (dinv (F := F) x1) (wrapCol (F := F) (dstIdx (F := F) x1)))

/-- The edge weights as a column. -/
def normCol (x1 : (⟨S2x500000, .i32⟩ : BufTy).Contents (Elt F)) : (⟨S600000x1, .f32⟩ : BufTy).Contents (Elt F) :=
  broadcastInDim S600000x1 ![0] bcast_S600000_S600000x1_0 (norm (F := F) x1)

/-- The aggregated features: the rows of x gathered at the edges' sources, weighted, summed at the destinations. -/
def agg (x0 : (⟨S100000x128, .f32⟩ : BufTy).Contents (Elt F)) (x1 : (⟨S2x500000, .i32⟩ : BufTy).Contents (Elt F)) : (⟨S100000x128, .f32⟩ : BufTy).Contents (Elt F) :=
  Host.scatterAdd (F := F) scatter_S100000x128_S600000x1_S600000x128_1_0_0_1
    (broadcastInDim S100000x128 ![] bcast_S_S100000x128 (constant (F := F) S_ .f32 0x00000000#32))
    (dstCol (F := F) x1)
    (mulf (F := F)
      (Host.gather gather_S100000x128_S600000x1_S600000x128_1_0_n_n_0_1_1128 x0 (wrapCol (F := F) (srcIdx (F := F) x1)))
      (broadcastInDim S600000x128 ![0, 1] bcast_S600000x1_S600000x128_0_1 (normCol (F := F) x1)))

/-- The first bias as a row. -/
def biasRow (x3 : (⟨S256, .f32⟩ : BufTy).Contents (Elt F)) : (⟨S1x256, .f32⟩ : BufTy).Contents (Elt F) := shapeCast S1x256 x3 shapeCasts_S256_S1x256

/-- The second aggregation, of the kernel's output rows, plus the last bias. -/
def tail (out : (⟨S100000x64, .bf16⟩ : BufTy).Contents (Elt F)) (x1 : (⟨S2x500000, .i32⟩ : BufTy).Contents (Elt F)) (x5 : (⟨S64, .f32⟩ : BufTy).Contents (Elt F)) : (⟨S100000x64, .f32⟩ : BufTy).Contents (Elt F) :=
  addf (F := F)
    (Host.scatterAdd (F := F) scatter_S100000x64_S600000x1_S600000x64_1_0_0_1
      (broadcastInDim S100000x64 ![] bcast_S_S100000x64 (constant (F := F) S_ .f32 0x00000000#32))
      (dstCol (F := F) x1)
      (mulf (F := F)
        (extf (F := F) .f32 (Host.gather gather_S100000x64_S600000x1_S600000x64_1_0_n_n_0_1_164 out (wrapCol (F := F) (srcIdx (F := F) x1))) bitsLt_bf16_f32)
        (broadcastInDim S600000x64 ![0, 1] bcast_S600000x1_S600000x64_0_1 (normCol (F := F) x1))))
    (broadcastInDim S100000x64 ![0, 1] bcast_S1x64_S100000x64_0_1 (broadcastInDim S1x64 ![1] bcast_S64_S1x64_1 x5))

end Cert.KernelIdeal.Host

end
-- ==== Proof.KernelHost.lean ====
/-
  What the kernel finds and what the lines after it compute: the host operations before the kernel leave the sources,
  the destinations, the edge weights, the aggregated features and the bias row in their buffers as the pure terms of
  the arguments named in KernelTerms, and the operations after it aggregate the kernel's output array.
-/
import proofs.«124716_j10282151706797_2_alg».proof.Proof.KernelTerms
import proofs.«124716_j10282151706797_2_alg».proof.Proof.Gen.KernelIdeal.Frame
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

set_option maxHeartbeats 8000000 in
/-- The kernel finds the sources, -/
theorem V_src (c : Dev nD) : V m c main_v3 = srcIdx (m ((c : Thread nD τ).loc main_arg1)) := by
  dsimp only [V, V0]
  simp only [hostOps0, hostOps0_1, hostOps0_2, List.flatten_cons, List.flatten_nil, List.append_nil, List.cons_append, List.nil_append]
  after_results_simp <;> rfl

set_option maxHeartbeats 8000000 in
/-- the destinations, -/
theorem V_dst (c : Dev nD) : V m c main_v6 = dstIdx (m ((c : Thread nD τ).loc main_arg1)) := by
  dsimp only [V, V0]
  simp only [hostOps0, hostOps0_1, hostOps0_2, List.flatten_cons, List.flatten_nil, List.append_nil, List.cons_append, List.nil_append]
  after_results_simp <;> rfl

set_option maxHeartbeats 16000000 in
/-- the edge weights, -/
theorem V_norm (c : Dev nD) : V m c main_v31 = norm (m ((c : Thread nD τ).loc main_arg1)) := by
  dsimp only [V, V0]
  simp only [hostOps0, hostOps0_1, hostOps0_2, List.flatten_cons, List.flatten_nil, List.append_nil, List.cons_append, List.nil_append]
  after_results_simp <;> rfl

set_option maxHeartbeats 32000000 in
/-- the aggregated features -/
theorem V_agg (c : Dev nD) : V m c main_v44 = agg (m ((c : Thread nD τ).loc main_arg0)) (m ((c : Thread nD τ).loc main_arg1)) := by
  dsimp only [V, V0]
  simp only [hostOps0, hostOps0_1, hostOps0_2, List.flatten_cons, List.flatten_nil, List.append_nil, List.cons_append, List.nil_append]
  after_results_simp <;> rfl

set_option maxHeartbeats 8000000 in
/-- and the first bias as a row. -/
theorem V_bias (c : Dev nD) : V m c main_v45 = biasRow (m ((c : Thread nD τ).loc main_arg3)) := by
  dsimp only [V, V0]
  simp only [hostOps0, hostOps0_1, hostOps0_2, List.flatten_cons, List.flatten_nil, List.append_nil, List.cons_append, List.nil_append]
  after_results_simp <;> rfl

set_option maxHeartbeats 16000000 in
/-- The lines after the kernel read the sources, the destinations and the edge weights as the kernel found them, and the
    kernel's output array as it left it; their result is the second aggregation of that array plus the last bias. -/
theorem tail_eq (c : Dev nD) :
    Pipeline.afterTail₀ cfgs (dats m) 0 (V0 m) [hostOps1] c main_v63
      = tail (F := F) ((dats m 0 c).arrAt 4 cfg0.N) (m ((c : Thread nD τ).loc main_arg1)) (m ((c : Thread nD τ).loc main_arg5)) := by
  have h3 : Pipeline.withArrays (cfgs 0).spec c (V0 m c) (fun w => (dats m 0 c).arrAt w (cfgs 0).N) (Proc.devRef .tc main_v3) = srcIdx (F := F) (m ((c : Thread nD τ).loc main_arg1)) :=
    (Pipeline.withArrays_of_ne _ c (V0 m c) _ main_v3 (by exact (by decide : ∀ w, Pipeline.arrRef spec0 w ≠ main_v3))).trans (V_src m c)
  have h6 : Pipeline.withArrays (cfgs 0).spec c (V0 m c) (fun w => (dats m 0 c).arrAt w (cfgs 0).N) (Proc.devRef .tc main_v6) = dstIdx (F := F) (m ((c : Thread nD τ).loc main_arg1)) :=
    (Pipeline.withArrays_of_ne _ c (V0 m c) _ main_v6 (by exact (by decide : ∀ w, Pipeline.arrRef spec0 w ≠ main_v6))).trans (V_dst m c)
  have h31 : Pipeline.withArrays (cfgs 0).spec c (V0 m c) (fun w => (dats m 0 c).arrAt w (cfgs 0).N) (Proc.devRef .tc main_v31) = norm (F := F) (m ((c : Thread nD τ).loc main_arg1)) :=
    (Pipeline.withArrays_of_ne _ c (V0 m c) _ main_v31 (by exact (by decide : ∀ w, Pipeline.arrRef spec0 w ≠ main_v31))).trans (V_norm m c)
  have h5 : Pipeline.withArrays (cfgs 0).spec c (V0 m c) (fun w => (dats m 0 c).arrAt w (cfgs 0).N) (Proc.devRef .tc main_arg5) = m ((c : Thread nD τ).loc main_arg5) :=
    (Pipeline.withArrays_of_ne _ c (V0 m c) _ main_arg5 (by exact (by decide : ∀ w, Pipeline.arrRef spec0 w ≠ main_arg5))).trans (V_main_arg5 m c)
  have h46 : Pipeline.withArrays (cfgs 0).spec c (V0 m c) (fun w => (dats m 0 c).arrAt w (cfgs 0).N) (Proc.devRef .tc main_v46) = (dats m 0 c).arrAt 4 cfg0.N :=
    Pipeline.withArrays_arr spec0 launch0.win.arr_inj c _ _ 4
  unfold Pipeline.afterTail₀
  show StableHlo.after hostOps1 _ (Proc.devRef .tc main_v63) = _
  after_results
  rw [h3, h6, h31, h5, h46]
  rfl

end Cert.KernelIdeal.Host

end
-- ==== Proof.KernelRun.lean ====
/-
  The kernel program's run, read: every weakly fair execution ends with the result buffer holding the second
  aggregation of the fused projection of the aggregated features — one pure term of the six arguments — and with
  the arguments unchanged.
-/
import proofs.«124716_j10282151706797_2_alg».proof.Proof.KernelBlocks
import proofs.«124716_j10282151706797_2_alg».proof.Proof.KernelHost

set_option maxRecDepth 16384

noncomputable section

namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result as one term of the arguments: aggregate the features, project every row through the two layers,
    aggregate again and add the last bias. -/
def result (x0 : (⟨S100000x128, .f32⟩ : BufTy).Contents (Elt Ideal)) (x1 : (⟨S2x500000, .i32⟩ : BufTy).Contents (Elt Ideal))
    (x2 : (⟨S128x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    (⟨S100000x64, .f32⟩ : BufTy).Contents (Elt Ideal) :=
  Host.tail (F := Ideal) (Blocks.fused (Host.agg (F := Ideal) x0 x1) x2 (Host.biasRow (F := Ideal) x3) x4) x1 x5

/-- The kernel's output array after the last block, as a term of the arguments. -/
theorem out_eq (c : Dev nD) :
    (dats m 0 c).arrAt 4 cfg0.N = Blocks.fused (Host.agg (F := Ideal) (m ((c.tc : Thread nD τ).loc main_arg0)) (m ((c.tc : Thread nD τ).loc main_arg1))) (m ((c.tc : Thread nD τ).loc main_arg2))
      (Host.biasRow (F := Ideal) (m ((c.tc : Thread nD τ).loc main_arg3))) (m ((c.tc : Thread nD τ).loc main_arg4)) := by
  rw [Blocks.final m c, Host.V_agg m c, Host.V_bias m c, V_main_arg2 m c, V_main_arg4 m c]

/-- The run, read. -/
theorem run : θ_run defs (onTc (τ := τ) (main (F := Ideal))) ⟨m, fun _ => 0, ρ⟩ fun r => ∀ c : Dev nD,
      r.2.mem ((c.tc : Thread nD τ).loc main_v63) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v63 (Pipeline.mem_restRefs_of main_v63 (by decide) (by decide))).trans
        ((Host.tail_eq m c).trans (by rw [out_eq m c]; rfl)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c))⟩)
    (run_main m ρ)

end Cert.KernelIdeal.Run

end
-- ==== Proof.RefTerms.lean ====
/- The reference program's result as one pure term of its six arguments: the program's own operations and
   dimension records composed in program order, the values the program uses more than once named. -/
import proofs.«124716_j10282151706797_2_alg».proof.ReferenceIdeal

noncomputable section

namespace Cert.ReferenceIdeal.RefValue

open Cert.ReferenceIdeal Idealize.ShloMosaic Idealize.SL.Sem

variable {F : FTy → Type} [FloatOps F] [Facts]
open Facts₀ Facts

/-! ## The composed term, in program order

The graph has 100000 nodes and 500000 edges `(src e, dst e)` given as the two rows of the second argument; a
self-loop is appended for every node, which makes 600000 edges. -/

/-- The node numbers `0 … 99999` (the self-loops' ends). -/
def nodeIota : (⟨S100000, .i32⟩ : BufTy).Contents (Elt F) := iotaInDim S100000 32 0

/-- The sources of the 600000 edges: row 0 of the edge table, then the self-loops. -/
def srcIdx (x1 : (⟨S2x500000, .i32⟩ : BufTy).Contents (Elt F)) : (⟨S600000, .i32⟩ : BufTy).Contents (Elt F) :=
  concatenate S600000 0 [⟨S500000, shapeCast S500000 (extractStridedSlice S1x500000 ![0, 0] x1 slices_S2x500000_S1x500000_0_0) shapeCasts_S1x500000_S500000⟩, ⟨S100000, nodeIota (F := F)⟩] concatenates_S500000_S100000_S600000_d0

/-- The destinations of the 600000 edges: row 1 of the edge table, then the self-loops. -/
def dstIdx (x1 : (⟨S2x500000, .i32⟩ : BufTy).Contents (Elt F)) : (⟨S600000, .i32⟩ : BufTy).Contents (Elt F) :=
  concatenate S600000 0 [⟨S500000, shapeCast S500000 (extractStridedSlice S1x500000 ![1, 0] x1 slices_S2x500000_S1x500000_1_0) shapeCasts_S1x500000_S500000⟩, ⟨S100000, nodeIota (F := F)⟩] concatenates_S500000_S100000_S600000_d0

/-- The destinations as the one-column index table a scatter takes. -/
def dstCol (x1 : (⟨S2x500000, .i32⟩ : BufTy).Contents (Elt F)) : (⟨S600000x1, .i32⟩ : BufTy).Contents (Elt F) :=
  broadcastInDim S600000x1 ![0] bcast_S600000_S600000x1_0 (dstIdx (F := F) x1)

/-- The in-degree of every node, self-loop counted: ones summed at the destinations over zeros. -/
def deg (x1 : (⟨S2x500000, .i32⟩ : BufTy).Contents (Elt F)) : (⟨S100000, .f32⟩ : BufTy).Contents (Elt F) :=
  Host.scatterAdd (F := F) scatter_S100000_S600000x1_S600000_n_0_0_1
    (broadcastInDim S100000 ![] bcast_S_S100000 (constant (F := F) S_ .f32 0x00000000#32))
    (dstCol (F := F) x1)
    (broadcastInDim S600000 ![] bcast_S_S600000 (constant (F := F) S_ .f32 0x3F800000#32))

/-- `1 / sqrt (max deg 1)` where the degree is positive, zero elsewhere. -/
def dinv (x1 : (⟨S2x500000, .i32⟩ : BufTy).Contents (Elt F)) : (⟨S100000, .f32⟩ : BufTy).Contents (Elt F) :=
  select (cmpf (F := F) .ogt (deg (F := F) x1) (broadcastInDim S100000 ![] bcast_S_S100000 (constant (F := F) S_ .f32 0x00000000#32)))
    (Host.rsqrt (F := F) (maximumf (F := F) (deg (F := F) x1) (broadcastInDim S100000 ![] bcast_S_S100000 (constant (F := F) S_ .f32 0x3F800000#32))))
    (broadcastInDim S100000 ![] bcast_S_S100000 (id (constant (F := F) S_ .f32 0x00000000#32)))

/-- An index vector with its negative entries moved up by the node count (the wrap-around a gather's indices get),
    as the one-column index table a gather takes. -/
def wrapCol (v : (⟨S600000, .i32⟩ : BufTy).Contents (Elt F)) : (⟨S600000x1, .i32⟩ : BufTy).Contents (Elt F) :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- The weight of every edge: `dinv` at its source times `dinv` at its destination. -/
def norm (x1 : (⟨S2x500000, .i32⟩ : BufTy).Contents (Elt F)) : (⟨S600000, .f32⟩ : BufTy).Contents (Elt F) :=
  mulf (F := F)
    (Host.gather gather_S100000_S600000x1_S600000_n_0_n_n_0_1_1 (dinv (F := F) x1) (wrapCol (F := F) (srcIdx (F := F) x1)))
    (Host.gather gather_S100000_S600000x1_S600000_n_0_n_n_0_1_1 (dinv (F := F) x1) (wrapCol (F := F) (dstIdx (F := F) x1)))

/-- The edge weights as a column. -/
def normCol (x1 : (⟨S2x500000, .i32⟩ : BufTy).Contents (Elt F)) : (⟨S600000x1, .f32⟩ : BufTy).Contents (Elt F) :=
  broadcastInDim S600000x1 ![0] bcast_S600000_S600000x1_0 (norm (F := F) x1)

/-- The first layer before its activation: the features times the first weight matrix, its rows gathered at the
    edges' sources, weighted, summed at the edges' destinations, plus the first bias. -/
def pre1 (x0 : (⟨S100000x128, .f32⟩ : BufTy).Contents (Elt F)) (x1 : (⟨S2x500000, .i32⟩ : BufTy).Contents (Elt F)) (x2 : (⟨S128x256, .f32⟩ : BufTy).Contents (Elt F)) (x3 : (⟨S256, .f32⟩ : BufTy).Contents (Elt F)) : (⟨S100000x256, .f32⟩ : BufTy).Contents (Elt F) :=
  addf (F := F)
    (Host.scatterAdd (F := F) scatter_S100000x256_S600000x1_S600000x256_1_0_0_1
      (broadcastInDim S100000x256 ![] bcast_S_S100000x256 (constant (F := F) S_ .f32 0x00000000#32))
      (dstCol (F := F) x1)
      (mulf (F := F)
        (Host.gather gather_S100000x256_S600000x1_S600000x256_1_0_n_n_0_1_1256
          (Host.dotGeneral (F := F) dot_S100000x128_S128x256_S100000x256_1_0_0_1_n_n none x0 x2)
          (wrapCol (F := F) (srcIdx (F := F) x1)))
        (broadcastInDim S600000x256 ![0, 1] bcast_S600000x1_S600000x256_0_1 (normCol (F := F) x1))))
    (broadcastInDim S100000x256 ![0, 1] bcast_S1x256_S100000x256_0_1 (broadcastInDim S1x256 ![1] bcast_S256_S1x256_1 x3))

/-- The hidden layer: the first layer's maximum with zero. -/
def hidden (x0 : (⟨S100000x128, .f32⟩ : BufTy).Contents (Elt F)) (x1 : (⟨S2x500000, .i32⟩ : BufTy).Contents (Elt F)) (x2 : (⟨S128x256, .f32⟩ : BufTy).Contents (Elt F)) (x3 : (⟨S256, .f32⟩ : BufTy).Contents (Elt F)) : (⟨S100000x256, .f32⟩ : BufTy).Contents (Elt F) :=
  maximumf (F := F) (pre1 (F := F) x0 x1 x2 x3)
    (broadcastInDim S100000x256 ![] bcast_S_S100000x256 (constant (F := F) S_ .f32 0x00000000#32))

/-- The hidden layer times the second weight matrix. -/
def proj (x0 : (⟨S100000x128, .f32⟩ : BufTy).Contents (Elt F)) (x1 : (⟨S2x500000, .i32⟩ : BufTy).Contents (Elt F)) (x2 : (⟨S128x256, .f32⟩ : BufTy).Contents (Elt F)) (x3 : (⟨S256, .f32⟩ : BufTy).Contents (Elt F)) (x4 : (⟨S256x64, .f32⟩ : BufTy).Contents (Elt F)) : (⟨S100000x64, .f32⟩ : BufTy).Contents (Elt F) :=
  Host.dotGeneral (F := F) dot_S100000x256_S256x64_S100000x64_1_0_0_1_n_n none (hidden (F := F) x0 x1 x2 x3) x4

/-- The result: the projected rows gathered at the edges' sources, weighted, summed at the edges' destinations,
    plus the second bias. -/
def res (x0 : (⟨S100000x128, .f32⟩ : BufTy).Contents (Elt F)) (x1 : (⟨S2x500000, .i32⟩ : BufTy).Contents (Elt F)) (x2 : (⟨S128x256, .f32⟩ : BufTy).Contents (Elt F)) (x3 : (⟨S256, .f32⟩ : BufTy).Contents (Elt F)) (x4 : (⟨S256x64, .f32⟩ : BufTy).Contents (Elt F)) (x5 : (⟨S64, .f32⟩ : BufTy).Contents (Elt F)) : (⟨S100000x64, .f32⟩ : BufTy).Contents (Elt F) :=
  addf (F := F)
    (Host.scatterAdd (F := F) scatter_S100000x64_S600000x1_S600000x64_1_0_0_1
      (broadcastInDim S100000x64 ![] bcast_S_S100000x64 (constant (F := F) S_ .f32 0x00000000#32))
      (dstCol (F := F) x1)
      (mulf (F := F)
        (Host.gather gather_S100000x64_S600000x1_S600000x64_1_0_n_n_0_1_164
          (proj (F := F) x0 x1 x2 x3 x4)
          (wrapCol (F := F) (srcIdx (F := F) x1)))
        (broadcastInDim S600000x64 ![0, 1] bcast_S600000x1_S600000x64_0_1 (normCol (F := F) x1))))
    (broadcastInDim S100000x64 ![0, 1] bcast_S1x64_S100000x64_0_1 (broadcastInDim S1x64 ![1] bcast_S64_S1x64_1 x5))

end Cert.ReferenceIdeal.RefValue

end
-- ==== Proof.RefRun.lean ====
/- The reference program's @main as the list of its 86 host operations (the two outlined functions' bodies
   inlined at their calls), and its run read back: every weakly fair execution terminates with the result buffer
   at the operations' composed pure term `res` of the six arguments' launch contents, the arguments unchanged. -/
import proofs.«124716_j10282151706797_2_alg».proof.ReferenceIdeal
import proofs.«124716_j10282151706797_2_alg».proof.Proof.Gen.ReferenceIdeal
import proofs.«124716_j10282151706797_2_alg».proof.Proof.RefTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- @main's 86 operations, in order. -/
abbrev ops : List (HloOp τ sig (Elt F)) :=
  [
    nullary main_v0 (iotaInDim S100000 32 0),
    unary main_arg1 main_v1 ((extractStridedSlice S1x500000 ![0, 0] · slices_S2x500000_S1x500000_0_0) : (⟨S2x500000, .i32⟩ : BufTy).Contents (Elt F) → (⟨S1x500000, .i32⟩ : BufTy).Contents (Elt F)),
    reshape main_v1 main_v2 rfl shapeCasts_S1x500000_S500000,
    binary main_v2 main_v0 main_v3 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg1 main_v4 ((extractStridedSlice S1x500000 ![1, 0] · slices_S2x500000_S1x500000_1_0) : (⟨S2x500000, .i32⟩ : BufTy).Contents (Elt F) → (⟨S1x500000, .i32⟩ : BufTy).Contents (Elt F)),
    reshape main_v4 main_v5 rfl shapeCasts_S1x500000_S500000,
    binary main_v5 main_v0 main_v6 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst (constant S_ .f32 0x3F800000#32),
    unary main_cst main_v7 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S600000x1 ![0] bcast_S600000_S600000x1_0 : (⟨S600000, .i32⟩ : BufTy).Contents (Elt F) → (⟨S600000x1, .i32⟩ : BufTy).Contents (Elt F)),
    ternary main_v8 main_v9 main_v7 main_v10 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S600000 ![] bcast_S_S600000 : (⟨S_, .i32⟩ : BufTy).Contents (Elt F) → (⟨S600000, .i32⟩ : BufTy).Contents (Elt F)),
    binary main_v3 main_v17 main_v18 (cmpi .slt : (⟨S600000, .i32⟩ : BufTy).Contents (Elt F) → (⟨S600000, .i32⟩ : BufTy).Contents (Elt F) → (⟨S600000, .i1⟩ : BufTy).Contents (Elt F)),
    nullary main_c_4 (constantI S_ 32 100000#32),
    unary main_c_4 main_v19 (broadcastInDim S600000 ![] bcast_S_S600000 : (⟨S_, .i32⟩ : BufTy).Contents (Elt F) → (⟨S600000, .i32⟩ : BufTy).Contents (Elt F)),
    binary main_v3 main_v19 main_v20 (addi : (⟨S600000, .i32⟩ : BufTy).Contents (Elt F) → (⟨S600000, .i32⟩ : BufTy).Contents (Elt F) → (⟨S600000, .i32⟩ : BufTy).Contents (Elt F)),
    ternary main_v18 main_v20 main_v3 main_v21 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v21 main_v22 (broadcastInDim S600000x1 ![0] bcast_S600000_S600000x1_0 : (⟨S600000, .i32⟩ : BufTy).Contents (Elt F) → (⟨S600000x1, .i32⟩ : BufTy).Contents (Elt F)),
    binary main_v16 main_v22 main_v23 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_5 (constantI S_ 32 0#32),
    unary main_c_5 main_v24 (broadcastInDim S600000 ![] bcast_S_S600000 : (⟨S_, .i32⟩ : BufTy).Contents (Elt F) → (⟨S600000, .i32⟩ : BufTy).Contents (Elt F)),
    binary main_v6 main_v24 main_v25 (cmpi .slt : (⟨S600000, .i32⟩ : BufTy).Contents (Elt F) → (⟨S600000, .i32⟩ : BufTy).Contents (Elt F) → (⟨S600000, .i1⟩ : BufTy).Contents (Elt F)),
    nullary main_c_6 (constantI S_ 32 100000#32),
    unary main_c_6 main_v26 (broadcastInDim S600000 ![] bcast_S_S600000 : (⟨S_, .i32⟩ : BufTy).Contents (Elt F) → (⟨S600000, .i32⟩ : BufTy).Contents (Elt F)),
    binary main_v6 main_v26 main_v27 (addi : (⟨S600000, .i32⟩ : BufTy).Contents (Elt F) → (⟨S600000, .i32⟩ : BufTy).Contents (Elt F) → (⟨S600000, .i32⟩ : BufTy).Contents (Elt F)),
    ternary main_v25 main_v27 main_v6 main_v28 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v28 main_v29 (broadcastInDim S600000x1 ![0] bcast_S600000_S600000x1_0 : (⟨S600000, .i32⟩ : BufTy).Contents (Elt F) → (⟨S600000x1, .i32⟩ : BufTy).Contents (Elt F)),
    binary main_v16 main_v29 main_v30 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v23 main_v30 main_v31 (mulf : (⟨S600000, .f32⟩ : BufTy).Contents (Elt F) → (⟨S600000, .f32⟩ : BufTy).Contents (Elt F) → (⟨S600000, .f32⟩ : BufTy).Contents (Elt F)),
    binary main_arg0 main_arg2 main_v32 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    nullary main_c_7 (constantI S_ 32 0#32),
    unary main_c_7 main_v33 (broadcastInDim S600000 ![] bcast_S_S600000 : (⟨S_, .i32⟩ : BufTy).Contents (Elt F) → (⟨S600000, .i32⟩ : BufTy).Contents (Elt F)),
    binary main_v3 main_v33 main_v34 (cmpi .slt : (⟨S600000, .i32⟩ : BufTy).Contents (Elt F) → (⟨S600000, .i32⟩ : BufTy).Contents (Elt F) → (⟨S600000, .i1⟩ : BufTy).Contents (Elt F)),
    nullary main_c_8 (constantI S_ 32 100000#32),
    unary main_c_8 main_v35 (broadcastInDim S600000 ![] bcast_S_S600000 : (⟨S_, .i32⟩ : BufTy).Contents (Elt F) → (⟨S600000, .i32⟩ : BufTy).Contents (Elt F)),
    binary main_v3 main_v35 main_v36 (addi : (⟨S600000, .i32⟩ : BufTy).Contents (Elt F) → (⟨S600000, .i32⟩ : BufTy).Contents (Elt F) → (⟨S600000, .i32⟩ : BufTy).Contents (Elt F)),
    ternary main_v34 main_v36 main_v3 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v37 main_v38 (broadcastInDim S600000x1 ![0] bcast_S600000_S600000x1_0 : (⟨S600000, .i32⟩ : BufTy).Contents (Elt F) → (⟨S600000x1, .i32⟩ : BufTy).Contents (Elt F)),
    binary main_v32 main_v38 main_v39 ((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F)),
    unary main_v31 main_v40 (broadcastInDim S600000x1 ![0] bcast_S600000_S600000x1_0 : (⟨S600000, .f32⟩ : BufTy).Contents (Elt F) → (⟨S600000x1, .f32⟩ : BufTy).Contents (Elt F)),
    unary main_v40 main_v41 (broadcastInDim S600000x256 ![0, 1] bcast_S600000x1_S600000x256_0_1 : (⟨S600000x1, .f32⟩ : BufTy).Contents (Elt F) → (⟨S600000x256, .f32⟩ : BufTy).Contents (Elt F)),
    binary main_v39 main_v41 main_v42 (mulf : (⟨S600000x256, .f32⟩ : BufTy).Contents (Elt F) → (⟨S600000x256, .f32⟩ : BufTy).Contents (Elt F) → (⟨S600000x256, .f32⟩ : BufTy).Contents (Elt F)),
    nullary main_cst_9 (constant S_ .f32 0x00000000#32),
    unary main_cst_9 main_v43 (broadcastInDim S100000x256 ![] bcast_S_S100000x256 : (⟨S_, .f32⟩ : BufTy).Contents (Elt F) → (⟨S100000x256, .f32⟩ : BufTy).Contents (Elt F)),
    unary main_v6 main_v44 (broadcastInDim S600000x1 ![0] bcast_S600000_S600000x1_0 : (⟨S600000, .i32⟩ : BufTy).Contents (Elt F) → (⟨S600000x1, .i32⟩ : BufTy).Contents (Elt F)),
    ternary main_v43 main_v44 main_v42 main_v45 ((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F)),
    unary main_arg3 main_v46 (broadcastInDim S1x256 ![1] bcast_S256_S1x256_1 : (⟨S256, .f32⟩ : BufTy).Contents (Elt F) → (⟨S1x256, .f32⟩ : BufTy).Contents (Elt F)),
    unary main_v46 main_v47 (broadcastInDim S100000x256 ![0, 1] bcast_S1x256_S100000x256_0_1 : (⟨S1x256, .f32⟩ : BufTy).Contents (Elt F) → (⟨S100000x256, .f32⟩ : BufTy).Contents (Elt F)),
    binary main_v45 main_v47 main_v48 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v48) (TRef.of (T := ⟨S100000x256, .f32⟩) main_call1_v0) (TRef.of (T := ⟨S100000x256, .f32⟩) main_v49) maximumf,
    binary main_v49 main_arg4 main_v50 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_c_10 (constantI S_ 32 0#32),
    unary main_c_10 main_v51 (broadcastInDim S600000 ![] bcast_S_S600000 : (⟨S_, .i32⟩ : BufTy).Contents (Elt F) → (⟨S600000, .i32⟩ : BufTy).Contents (Elt F)),
    binary main_v3 main_v51 main_v52 (cmpi .slt : (⟨S600000, .i32⟩ : BufTy).Contents (Elt F) → (⟨S600000, .i32⟩ : BufTy).Contents (Elt F) → (⟨S600000, .i1⟩ : BufTy).Contents (Elt F)),
    nullary main_c_11 (constantI S_ 32 100000#32),
    unary main_c_11 main_v53 (broadcastInDim S600000 ![] bcast_S_S600000 : (⟨S_, .i32⟩ : BufTy).Contents (Elt F) → (⟨S600000, .i32⟩ : BufTy).Contents (Elt F)),
    binary main_v3 main_v53 main_v54 (addi : (⟨S600000, .i32⟩ : BufTy).Contents (Elt F) → (⟨S600000, .i32⟩ : BufTy).Contents (Elt F) → (⟨S600000, .i32⟩ : BufTy).Contents (Elt F)),
    ternary main_v52 main_v54 main_v3 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v55 main_v56 (broadcastInDim S600000x1 ![0] bcast_S600000_S600000x1_0 : (⟨S600000, .i32⟩ : BufTy).Contents (Elt F) → (⟨S600000x1, .i32⟩ : BufTy).Contents (Elt F)),
    binary main_v50 main_v56 main_v57 ((fun x i => Host.gather gather_S100000x64_S600000x1_S600000x64_1_0_n_n_0_1_164 x i) : (⟨S100000x64, .f32⟩ : BufTy).Contents (Elt F) → (⟨S600000x1, .i32⟩ : BufTy).Contents (Elt F) → (⟨S600000x64, .f32⟩ : BufTy).Contents (Elt F)),
    unary main_v31 main_v58 (broadcastInDim S600000x1 ![0] bcast_S600000_S600000x1_0 : (⟨S600000, .f32⟩ : BufTy).Contents (Elt F) → (⟨S600000x1, .f32⟩ : BufTy).Contents (Elt F)),
    unary main_v58 main_v59 (broadcastInDim S600000x64 ![0, 1] bcast_S600000x1_S600000x64_0_1 : (⟨S600000x1, .f32⟩ : BufTy).Contents (Elt F) → (⟨S600000x64, .f32⟩ : BufTy).Contents (Elt F)),
    binary main_v57 main_v59 main_v60 (mulf : (⟨S600000x64, .f32⟩ : BufTy).Contents (Elt F) → (⟨S600000x64, .f32⟩ : BufTy).Contents (Elt F) → (⟨S600000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S600000x1 ![0] bcast_S600000_S600000x1_0 : (⟨S600000, .i32⟩ : BufTy).Contents (Elt F) → (⟨S600000x1, .i32⟩ : BufTy).Contents (Elt F)),
    ternary main_v61 main_v62 main_v60 main_v63 ((fun x i u => Host.scatterAdd scatter_S100000x64_S600000x1_S600000x64_1_0_0_1 x i u) : (⟨S100000x64, .f32⟩ : BufTy).Contents (Elt F) → (⟨S600000x1, .i32⟩ : BufTy).Contents (Elt F) → (⟨S600000x64, .f32⟩ : BufTy).Contents (Elt F) → (⟨S100000x64, .f32⟩ : BufTy).Contents (Elt F)),
    unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

set_option maxRecDepth 8192 in
set_option maxHeartbeats 34400000 in
/-- On the device, for any float values, from any memory with zero counters: every weakly fair execution of @main
    terminates with the result at `res` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans (by after_results_simp; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.RefSeg.lean ====
/-
  The reference's first layer, with its segment sum named: for every node n and hidden unit j,
  seg1[n, j] = Σ_{e : dst e = n} (x·W1)[src e, j] · norm[e], and the layer before its activation is seg1 plus the bias.
-/
import proofs.«124716_j10282151706797_2_alg».proof.Proof.RefTerms

noncomputable section

namespace Cert.ReferenceIdeal.RefValue

open Cert.ReferenceIdeal Idealize.ShloMosaic Idealize.SL.Sem

variable {F : FTy → Type} [FloatOps F] [Facts]
open Facts₀ Facts

/-- The rows of x·W1 gathered at the edges' sources, weighted, summed at the edges' destinations. -/
def seg1 (x0 : (⟨S100000x128, .f32⟩ : BufTy).Contents (Elt F)) (x1 : (⟨S2x500000, .i32⟩ : BufTy).Contents (Elt F)) (x2 : (⟨S128x256, .f32⟩ : BufTy).Contents (Elt F)) : (⟨S100000x256, .f32⟩ : BufTy).Contents (Elt F) :=
  Host.scatterAdd (F := F) scatter_S100000x256_S600000x1_S600000x256_1_0_0_1
    (broadcastInDim S100000x256 ![] bcast_S_S100000x256 (constant (F := F) S_ .f32 0x00000000#32))
    (dstCol (F := F) x1)
    (mulf (F := F)
      (Host.gather gather_S100000x256_S600000x1_S600000x256_1_0_n_n_0_1_1256
        (Host.dotGeneral (F := F) dot_S100000x128_S128x256_S100000x256_1_0_0_1_n_n none x0 x2)
        (wrapCol (F := F) (srcIdx (F := F) x1)))
      (broadcastInDim S600000x256 ![0, 1] bcast_S600000x1_S600000x256_0_1 (normCol (F := F) x1)))

/-- The first layer before its activation is the segment sum plus the bias on every row. -/
theorem pre1_eq (x0 : (⟨S100000x128, .f32⟩ : BufTy).Contents (Elt F)) (x1 : (⟨S2x500000, .i32⟩ : BufTy).Contents (Elt F)) (x2 : (⟨S128x256, .f32⟩ : BufTy).Contents (Elt F)) (x3 : (⟨S256, .f32⟩ : BufTy).Contents (Elt F)) :
    pre1 (F := F) x0 x1 x2 x3 = addf (F := F) (seg1 (F := F) x0 x1 x2)
      (broadcastInDim S100000x256 ![0, 1] bcast_S1x256_S100000x256_0_1 (broadcastInDim S1x256 ![1] bcast_S256_S1x256_1 x3)) := rfl

end Cert.ReferenceIdeal.RefValue

end
-- ==== Proof.RefDots.lean ====
import proofs.«124716_j10282151706797_2_alg».proof.ReferenceIdeal
import Idealize.ShloMosaic.Lib.ValueIdx
import Idealize.ShloMosaic.PureOps.Ideal.Laws

noncomputable section

open scoped BigOperators

namespace Cert.ReferenceIdeal.Dots

open Idealize.ShloMosaic Idealize.ShloMosaic.ValueIdx Cert.ReferenceIdeal

variable [Cert.ReferenceIdeal.Facts]

/-- The first host product read at row `r` and column `j`: the sum over the contracted coordinate of the products
    of the entries. -/
theorem dot1_apply (x0 : FVec Ideal S100000x128 .f32) (x2 : FVec Ideal S128x256 .f32) (r : Fin 100000) (j : Fin 256) :
    Host.dotGeneral (F := Ideal) dot_S100000x128_S128x256_S100000x256_1_0_0_1_n_n none x0 x2 (ix2 r j)
      = ∑ k : Fin 128, x0 (ix2 r k) * x2 (ix2 k j) := by
  show FloatOps.dotGeneral _ none _ x0 x2 (ix2 r j) = _
  rw [Ideal.dotGeneral_apply,
    ← Equiv.sum_comp (contrEquiv1 dot_S100000x128_S128x256_S100000x256_1_0_0_1_n_n 128 rfl rfl).symm]
  refine Finset.sum_congr rfl fun c _ => ?_
  have c2 := contrEquiv1_symm_val dot_S100000x128_S128x256_S100000x256_1_0_0_1_n_n 128 rfl rfl c
  have l2 : dot_S100000x128_S128x256_S100000x256_1_0_0_1_n_n.lhsIdx (ix2 r j)
      ((contrEquiv1 dot_S100000x128_S128x256_S100000x256_1_0_0_1_n_n 128 rfl rfl).symm c) = ix2 r c := by
    funext ax; apply Fin.ext
    match ax with
    | ⟨0, _⟩ => simp [DotDims.lhsIdx, dot_S100000x128_S128x256_S100000x256_1_0_0_1_n_n]; rfl
    | ⟨1, _⟩ => simp [DotDims.lhsIdx, dot_S100000x128_S128x256_S100000x256_1_0_0_1_n_n]; exact c2
  have r2 : dot_S100000x128_S128x256_S100000x256_1_0_0_1_n_n.rhsIdx (ix2 r j)
      ((contrEquiv1 dot_S100000x128_S128x256_S100000x256_1_0_0_1_n_n 128 rfl rfl).symm c) = ix2 c j := by
    funext ax; apply Fin.ext
    match ax with
    | ⟨0, _⟩ => simp [DotDims.rhsIdx, dot_S100000x128_S128x256_S100000x256_1_0_0_1_n_n]; exact c2
    | ⟨1, _⟩ => simp [DotDims.rhsIdx, dot_S100000x128_S128x256_S100000x256_1_0_0_1_n_n]; rfl
  rw [l2, r2]

/-- The second host product read at row `r` and column `o`: the sum over the contracted coordinate of the products
    of the entries. -/
theorem dot2_apply (h : FVec Ideal S100000x256 .f32) (x4 : FVec Ideal S256x64 .f32) (r : Fin 100000) (o : Fin 64) :
    Host.dotGeneral (F := Ideal) dot_S100000x256_S256x64_S100000x64_1_0_0_1_n_n none h x4 (ix2 r o)
      = ∑ j : Fin 256, h (ix2 r j) * x4 (ix2 j o) := by
  show FloatOps.dotGeneral _ none _ h x4 (ix2 r o) = _
  rw [Ideal.dotGeneral_apply,
    ← Equiv.sum_comp (contrEquiv1 dot_S100000x256_S256x64_S100000x64_1_0_0_1_n_n 256 rfl rfl).symm]
  refine Finset.sum_congr rfl fun c _ => ?_
  have c2 := contrEquiv1_symm_val dot_S100000x256_S256x64_S100000x64_1_0_0_1_n_n 256 rfl rfl c
  have l2 : dot_S100000x256_S256x64_S100000x64_1_0_0_1_n_n.lhsIdx (ix2 r o)
      ((contrEquiv1 dot_S100000x256_S256x64_S100000x64_1_0_0_1_n_n 256 rfl rfl).symm c) = ix2 r c := by
    funext ax; apply Fin.ext
    match ax with
    | ⟨0, _⟩ => simp [DotDims.lhsIdx, dot_S100000x256_S256x64_S100000x64_1_0_0_1_n_n]; rfl
    | ⟨1, _⟩ => simp [DotDims.lhsIdx, dot_S100000x256_S256x64_S100000x64_1_0_0_1_n_n]; exact c2
  have r2 : dot_S100000x256_S256x64_S100000x64_1_0_0_1_n_n.rhsIdx (ix2 r o)
      ((contrEquiv1 dot_S100000x256_S256x64_S100000x64_1_0_0_1_n_n 256 rfl rfl).symm c) = ix2 c o := by
    funext ax; apply Fin.ext
    match ax with
    | ⟨0, _⟩ => simp [DotDims.rhsIdx, dot_S100000x256_S256x64_S100000x64_1_0_0_1_n_n]; exact c2
    | ⟨1, _⟩ => simp [DotDims.rhsIdx, dot_S100000x256_S256x64_S100000x64_1_0_0_1_n_n]; rfl
  rw [l2, r2]

end Cert.ReferenceIdeal.Dots

end
-- ==== Proof.LibEdgeWeight.lean ====
import Idealize.ShloMosaic.PureOps.Ideal
import Idealize.ShloMosaic.PureOps.Ideal.Laws
import Idealize.ShloMosaic.Lib.ValueIdx
import Idealize.ShloMosaic.Lib.Pipeline.Value

noncomputable section

namespace Cert.Lib.EdgeWeight

open Idealize.ShloMosaic Idealize.ShloMosaic.ValueIdx

/-! ## The reciprocal square root of a quantity that is at least one -/

/-- The f32 word `0x3F800000` is `1`. -/
theorem ofBits_one_f32 : Ideal.ofBits .f32 0x3F800000#32 = (1 : EReal) := by
  simp [Ideal.ofBits, Ideal.ieee]
  rw [← EReal.coe_mul, ← EReal.coe_one]
  congr 1
  norm_num

/-- The reciprocal square root of a positive real number is a real number. -/
theorem rsqrt_coe_pos_real (t : ℝ) (ht : 0 < t) : ∃ r : ℝ, Ideal.rsqrt (t : EReal) = (r : EReal) := by
  refine ⟨(Real.sqrt t)⁻¹, ?_⟩
  rw [Ideal.rsqrt_coe, if_neg (not_lt.2 ht.le), if_neg ht.ne']

/-- `1 / √(max y 1)` is a real number for every extended real `y`: the maximum is a real number that is at least
    one, or `+∞`, whose reciprocal square root is `0`. -/
theorem rsqrt_max_one_real (y : EReal) :
    ∃ r : ℝ, Ideal.rsqrt (max y (Ideal.ofBits .f32 0x3F800000#32)) = (r : EReal) := by
  rw [ofBits_one_f32]
  induction y using EReal.rec with
  | bot =>
    rw [max_eq_right bot_le, ← EReal.coe_one]
    exact rsqrt_coe_pos_real 1 one_pos
  | coe t =>
    have hm : max (t : EReal) 1 = ((max t 1 : ℝ) : EReal) := by
      rw [← EReal.coe_one]; exact (EReal.coe_strictMono.monotone.map_max).symm
    rw [hm]
    exact rsqrt_coe_pos_real _ (lt_of_lt_of_le one_pos (le_max_right _ _))
  | top =>
    rw [max_eq_left le_top]
    exact ⟨0, by rw [Ideal.rsqrt_top, EReal.coe_zero]⟩

/-- A choice, entry by entry, between `1 / √(max d 1)` and a real number is a real number. -/
theorem inv_sqrt_deg_real {s : Shape} (cnd : IVec s 1) (d one z : FVec Ideal s .f32)
    (hone : ∀ i, one i = Ideal.ofBits .f32 0x3F800000#32) (hz : ∀ i, ∃ r : ℝ, z i = (r : EReal)) (i : s.Idx) :
    ∃ r : ℝ, select cnd (Host.rsqrt (F := Ideal) (maximumf (F := Ideal) d one)) z i = (r : EReal) := by
  rw [select_apply]
  by_cases hc : cnd i = 1#1
  · rw [hc, select_one]
    show ∃ r : ℝ, Ideal.rsqrt (max (d i) (one i)) = (r : EReal)
    rw [hone i]
    exact rsqrt_max_one_real _
  · rw [eq_zero_of_ne_one hc, select_zero]
    exact hz i

/-! ## A gathered entry is an entry of the table -/

/-- Every element of a gather's result is an element of its operand. -/
theorem gather_entry {α : Type} {s si so : Shape} {w : Nat} (g : GatherDims s si so) (T : s.Idx → α) (I : IVec si w)
    (y : so.Idx) : ∃ i, Host.gather g T I y = T i :=
  ⟨g.operandIdx y I, rfl⟩

/-! ## A splat constant read at an index -/

/-- A scalar constant broadcast to any shape reads, at every index, the value its word denotes. -/
theorem splat_apply {s : Shape} (h : (⟨0, ![]⟩ : Shape).BroadcastsInDim s (![] : Fin 0 → Fin s.rank)) (φ : FTy)
    (wd : BitVec φ.bits) (i : s.Idx) :
    broadcastInDim s ![] h (constant (F := Ideal) ⟨0, ![]⟩ φ wd) i = Ideal.ofBits φ wd := rfl

/-- The splat of the f32 word `0x00000000` is `0` everywhere. -/
theorem splat_zero_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (splat_apply h .f32 _ i).trans Ideal.ofBits_zero_f32

/-- The splat of the f32 word `0x3F800000` is `1` everywhere. -/
theorem splat_one_apply {s : Shape} (h : (⟨0, ![]⟩ : Shape).BroadcastsInDim s (![] : Fin 0 → Fin s.rank)) (i : s.Idx) :
    broadcastInDim s ![] h (constant (F := Ideal) ⟨0, ![]⟩ .f32 0x3F800000#32) i = (1 : EReal) :=
  (splat_apply h .f32 _ i).trans ofBits_one_f32

end Cert.Lib.EdgeWeight

end
-- ==== Proof.RefProj.lean ====
/-
  The reference's projection read at an index: for every node n and output unit o,
  proj[n, o] = Σ_j max (seg1[n, j] + b1[j]) 0 · W2[j, o].
-/
import proofs.«124716_j10282151706797_2_alg».proof.Proof.RefSeg
import proofs.«124716_j10282151706797_2_alg».proof.Proof.RefDots
import proofs.«124716_j10282151706797_2_alg».proof.Proof.LibEdgeWeight
import Idealize.ShloMosaic.Lib.ValueIdx
import Idealize.ShloMosaic.Lib.Pipeline.Value

noncomputable section

open scoped BigOperators

namespace Cert.ReferenceIdeal.Bridge

open Idealize.ShloMosaic Idealize.ShloMosaic.ValueIdx Cert.ReferenceIdeal

variable [Cert.ReferenceIdeal.Facts]
open Facts₀ Facts

/-- The bias of the first layer, broadcast to one row and then to every row, read at row `n` and column `j` is
    its entry `j`. -/
theorem bias1_apply (x3 : FVec Ideal S256 .f32) (n : Fin 100000) (j : Fin 256) :
    broadcastInDim S100000x256 ![0, 1] bcast_S1x256_S100000x256_0_1
        (broadcastInDim S1x256 ![1] bcast_S256_S1x256_1 x3) (ix2 n j) = x3 (ix1 j) := by
  rw [broadcastInDim_apply ![0, 1] bcast_S1x256_S100000x256_0_1 _ (ix2 n j) (ix2 (0 : Fin 1) j)
        (fun a => match a with | ⟨0, _⟩ => rfl | ⟨1, _⟩ => rfl),
    broadcastInDim_apply ![1] bcast_S256_S1x256_1 x3 (ix2 (0 : Fin 1) j) (ix1 j)
        (fun a => match a with | ⟨0, _⟩ => rfl)]

/-- The hidden layer read at row `n` and column `j`: the segment sum plus the bias, cut off below at zero. -/
theorem hidden_apply (x0 : FVec Ideal S100000x128 .f32) (x1 : IVec S2x500000 32) (x2 : FVec Ideal S128x256 .f32)
    (x3 : FVec Ideal S256 .f32) (n : Fin 100000) (j : Fin 256) :
    RefValue.hidden (F := Ideal) x0 x1 x2 x3 (ix2 n j)
      = max (RefValue.seg1 (F := Ideal) x0 x1 x2 (ix2 n j) + x3 (ix1 j)) 0 := by
  unfold RefValue.hidden
  rw [maximumf_apply, Cert.Lib.EdgeWeight.splat_zero_apply, RefValue.pre1_eq, addf_apply, bias1_apply]

/-- The projection read at row `n` and column `o`: the hidden layer's row `n` against the second weight
    matrix's column `o`. -/
theorem proj_apply (x0 : FVec Ideal S100000x128 .f32) (x1 : IVec S2x500000 32) (x2 : FVec Ideal S128x256 .f32)
    (x3 : FVec Ideal S256 .f32) (x4 : FVec Ideal S256x64 .f32) (n : Fin 100000) (o : Fin 64) :
    RefValue.proj (F := Ideal) x0 x1 x2 x3 x4 (ix2 n o)
      = ∑ j : Fin 256, max (RefValue.seg1 (F := Ideal) x0 x1 x2 (ix2 n j) + x3 (ix1 j)) 0 * x4 (ix2 j o) := by
  unfold RefValue.proj
  rw [Cert.ReferenceIdeal.Dots.dot2_apply]
  refine Finset.sum_congr rfl fun j _ => ?_
  rw [hidden_apply]

end Cert.ReferenceIdeal.Bridge

end
-- ==== Proof.LibScatterRows.lean ====
/-
  General lemmas: the "row" scatter's result index, and two facts about the accumulating scatter over the extended reals.

  What a segment sum `segment_sum(rows, ids, num_segments = B)` of rows `[N, C]` at an integer array `ids : [N]` lowers to:
  `stablehlo.scatter` with an `add` body, update_window_dims `[1]`, inserted_window_dims `[0]`,
  scatter_dims_to_operand_dims `[0]` and index_vector_dim 1 over the indices as `[N, 1]`. Update element `(n, c)` lands on
  the operand's element `(ids[n, 0], c)`, the index read as a signed integer and NOT clamped: when it is outside
  `[0, B)` the update is dropped.
-/
import Idealize.ShloMosaic.Lib.ValueIdx
import Idealize.ShloMosaic.PureOps.Contract

noncomputable section

open scoped BigOperators

namespace Cert.Lib.ScatterRows

open Idealize.ShloMosaic Idealize.ShloMosaic.ValueIdx

/-- The dimension numbers of a row scatter: operand `[B, C]`, scatter indices `[N, 1]`, updates `[N, C]`; the operand's
    axis 0 is indexed (an inserted window axis), the updates' axis 1 is the window and goes to the operand's axis 1.
    The conditions `wf` are decided on a program's literal shapes. -/
abbrev rowsScatter (B C N : Nat) (wf : ScatterDims.WF ⟨2, ![B, C]⟩ ⟨2, ![N, 1]⟩ ⟨2, ![N, C]⟩ [1] [0] [0] 1) :
    ScatterDims ⟨2, ![B, C]⟩ ⟨2, ![N, 1]⟩ ⟨2, ![N, C]⟩ where
  updateWindowDims := [1]
  insertedWindowDims := [0]
  scatterDimsToOperandDims := [0]
  indexVectorDim := 1
  wf := wf

/-- The scatter-indices index `[n, 0]` of the update index `(n, c)`. -/
abbrev rowIdx {N C : Nat} (j : (⟨2, ![N, C]⟩ : Shape).Idx) : (⟨2, ![N, 1]⟩ : Shape).Idx :=
  fun a => match a with | ⟨0, _⟩ => ⟨(j 0).val, idx2_lt0 j⟩ | ⟨1, _⟩ => ⟨0, Nat.one_pos⟩

section Rows
variable {B C N w : Nat} (wf : ScatterDims.WF ⟨2, ![B, C]⟩ ⟨2, ![N, 1]⟩ ⟨2, ![N, C]⟩ [1] [0] [0] 1)
  (j : (⟨2, ![N, C]⟩ : Shape).Idx) (idx : IVec ⟨2, ![N, 1]⟩ w)

/-- On the operand's axis 0 the window starts at the scatter index `ids[n, 0]`, read signed. -/
theorem start_zero : (rowsScatter B C N wf).start j idx 0 = (idx (rowIdx j)).toInt := by
  unfold ScatterDims.start
  rw [dif_pos (show (0 : Fin 2) ∈ (rowsScatter B C N wf).scatterDimsToOperandDims from List.mem_singleton.mpr rfl)]
  have hsi : (rowsScatter B C N wf).siIdx j ⟨List.idxOf (0 : Fin 2) (rowsScatter B C N wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the operand's axis 1, which the scatter indices do not name, the window starts at 0. -/
theorem start_one : (rowsScatter B C N wf).start j idx 1 = 0 := by
  unfold ScatterDims.start
  rw [dif_neg (show (1 : Fin 2) ∉ (rowsScatter B C N wf).scatterDimsToOperandDims from
    (by decide : (1 : Fin 2) ∉ ([0] : List (Fin 2))))]

/-- The operand's axis 0 is an inserted window axis: its window coordinate is 0. -/
theorem window_zero : (rowsScatter B C N wf).window j 0 = 0 := by
  unfold ScatterDims.window
  rw [dif_neg (show (0 : Fin 2) ∉ (rowsScatter B C N wf).sKept from
    (by decide : (0 : Fin 2) ∉ (List.finRange 2).filter (· ∉ ([0] : List (Fin 2)))))]

/-- On the operand's axis 1 the window coordinate is the update's column. -/
theorem window_one : (rowsScatter B C N wf).window j 1 = (j 1).val := by
  unfold ScatterDims.window
  rw [dif_pos (show (1 : Fin 2) ∈ (rowsScatter B C N wf).sKept from
    (by decide : (1 : Fin 2) ∈ (List.finRange 2).filter (· ∉ ([0] : List (Fin 2)))))]
  rfl

/-- WHERE AN UPDATE OF THE ROW SCATTER LANDS: update `(n, c)` lands on operand element `i` exactly when the scatter
    index `ids[n, 0]`, read signed, is in `[0, B)`, is `i`'s row, and `c` is `i`'s column. -/
theorem resultIdx?_rows_iff (i : (⟨2, ![B, C]⟩ : Shape).Idx) :
    (rowsScatter B C N wf).resultIdx? j idx = some i ↔
      0 ≤ (idx (rowIdx j)).toInt ∧ (idx (rowIdx j)).toInt < B ∧ ((i 0).val : Int) = (idx (rowIdx j)).toInt
        ∧ (i 1).val = (j 1).val := by
  have hi0 : (i 0).val < B := idx2_lt0 i
  have hj1 : (j 1).val < C := idx2_lt1 j
  unfold ScatterDims.resultIdx?
  constructor
  · intro h
    split at h
    · rename_i hc
      have hi := Option.some.inj h
      have e0 : ((i 0).val : Int) = (idx (rowIdx j)).toInt := by
        have h0 := hc 0
        rw [start_zero, window_zero] at h0
        rw [← hi]
        show (((rowsScatter B C N wf).start j idx 0 + ((rowsScatter B C N wf).window j 0 : Nat)).toNat : Int) = _
        rw [start_zero, window_zero]
        omega
      have e1 : (i 1).val = (j 1).val := by
        rw [← hi]
        show ((rowsScatter B C N wf).start j idx 1 + ((rowsScatter B C N wf).window j 1 : Nat)).toNat = _
        rw [start_one, window_one]
        omega
      refine ⟨by omega, by omega, e0, e1⟩
    · exact absurd h (by simp)
  · rintro ⟨h0, hlt, e0, e1⟩
    have hc : ∀ a : Fin 2, 0 ≤ (rowsScatter B C N wf).start j idx a + ((rowsScatter B C N wf).window j a : Nat) ∧
        (rowsScatter B C N wf).start j idx a + ((rowsScatter B C N wf).window j a : Nat)
          < ((⟨2, ![B, C]⟩ : Shape).size a : Nat) := by
      intro a
      match a with
      | ⟨0, _⟩ =>
        show 0 ≤ (rowsScatter B C N wf).start j idx 0 + ((rowsScatter B C N wf).window j 0 : Nat) ∧
          (rowsScatter B C N wf).start j idx 0 + ((rowsScatter B C N wf).window j 0 : Nat) < (B : Int)
        rw [start_zero, window_zero]; omega
      | ⟨1, _⟩ =>
        show 0 ≤ (rowsScatter B C N wf).start j idx 1 + ((rowsScatter B C N wf).window j 1 : Nat) ∧
          (rowsScatter B C N wf).start j idx 1 + ((rowsScatter B C N wf).window j 1 : Nat) < (C : Int)
        rw [start_one, window_one]; omega
    rw [dif_pos hc]
    congr 1
    funext a
    refine Fin.ext ?_
    match a with
    | ⟨0, _⟩ =>
      show ((rowsScatter B C N wf).start j idx 0 + ((rowsScatter B C N wf).window j 0 : Nat)).toNat = (i 0).val
      rw [start_zero, window_zero]; omega
    | ⟨1, _⟩ =>
      show ((rowsScatter B C N wf).start j idx 1 + ((rowsScatter B C N wf).window j 1 : Nat)).toNat = (i 1).val
      rw [start_one, window_one]; omega

/-- An update `(n, c)` that is not dropped has its scatter index `ids[n, 0]`, read signed, in `[0, B)`, and lands on
    that row, at column `c`. -/
theorem resultIdx?_rows (i : (⟨2, ![B, C]⟩ : Shape).Idx) (h : (rowsScatter B C N wf).resultIdx? j idx = some i) :
    0 ≤ (idx (rowIdx j)).toInt ∧ (idx (rowIdx j)).toInt < B ∧ ((i 0).val : Int) = (idx (rowIdx j)).toInt
      ∧ (i 1).val = (j 1).val :=
  (resultIdx?_rows_iff wf j idx i).mp h

end Rows

/-! ## The accumulating scatter over the extended reals, for any dimension numbers -/

section Add
variable {s si u : Shape} {φ : FTy} {w : Nat} (d : ScatterDims s si u)

/-- The accumulating scatter at an index: the operand's element plus the sum of the updates landing on it. -/
theorem scatterAdd_apply (x : FVec Ideal s φ) (idx : IVec si w) (upd : FVec Ideal u φ) (i : s.Idx) :
    Host.scatterAdd (F := Ideal) d x idx upd i = Ideal.hostScatterAdd d x idx upd i := rfl

/-- The accumulating scatter reads only the updates that are not dropped: two update arrays that agree on every
    update index landing inside the operand give the same result. -/
theorem hostScatterAdd_congr (x : FVec Ideal s φ) (idx : IVec si w) (upd upd' : FVec Ideal u φ)
    (h : ∀ j, (∃ i, d.resultIdx? j idx = some i) → upd j = upd' j) :
    Host.scatterAdd (F := Ideal) d x idx upd = Host.scatterAdd (F := Ideal) d x idx upd' := by
  funext i
  rw [scatterAdd_apply, scatterAdd_apply]
  unfold Ideal.hostScatterAdd
  congr 1
  exact Finset.sum_congr rfl fun j hj => h j ⟨i, (Finset.mem_filter.mp hj).2⟩

/-- An element of the accumulating scatter is positive when the operand's element is nonnegative, every update landing
    on it is nonnegative, and one of them is positive. (The extended reals are an ordered additive monoid: one term of
    a sum of nonnegative terms is below the sum.) -/
theorem hostScatterAdd_pos' (x : FVec Ideal s φ) (idx : IVec si w) (upd : FVec Ideal u φ) (i : s.Idx)
    (hx : 0 ≤ x i) (hupd : ∀ j, d.resultIdx? j idx = some i → 0 ≤ upd j)
    (j₀ : u.Idx) (hj₀ : d.resultIdx? j₀ idx = some i) (hpos : 0 < upd j₀) :
    0 < Host.scatterAdd (F := Ideal) d x idx upd i := by
  rw [scatterAdd_apply]
  unfold Ideal.hostScatterAdd
  have hle : upd j₀ ≤ ∑ j ∈ Finset.univ.filter (fun j => d.resultIdx? j idx = some i), upd j :=
    Finset.single_le_sum (f := upd) (fun j hj => hupd j (Finset.mem_filter.mp hj).2)
      (Finset.mem_filter.mpr ⟨Finset.mem_univ _, hj₀⟩)
  exact lt_of_lt_of_le hpos (le_trans hle (le_add_of_nonneg_left hx))

/-- An element of the accumulating scatter is positive when the operand's element is nonnegative, every update is
    positive, and some update lands on it. -/
theorem hostScatterAdd_pos (x : FVec Ideal s φ) (idx : IVec si w) (upd : FVec Ideal u φ) (i : s.Idx)
    (hx : 0 ≤ x i) (hupd : ∀ j, 0 < upd j) (j₀ : u.Idx) (hj₀ : d.resultIdx? j₀ idx = some i) :
    0 < Host.scatterAdd (F := Ideal) d x idx upd i :=
  hostScatterAdd_pos' d x idx upd i hx (fun j _ => (hupd j).le) j₀ hj₀ (hupd j₀)

end Add

end Cert.Lib.ScatterRows

end
-- ==== Proof.LibSegmentSum.lean ====
/-
  General lemmas: the row scatter-add (a segment sum) read at an index as a sum over the update rows that land on the
  row, and the linearity of a finite weighted sum under a right product, over the extended reals with real entries.
-/
import proofs.«124716_j10282151706797_2_alg».proof.Proof.LibScatterRows
import Idealize.ShloMosaic.Lib.ValueIdx

noncomputable section

open scoped BigOperators

namespace Cert.Lib.SegmentSum

open Idealize.ShloMosaic Idealize.ShloMosaic.ValueIdx

/-! ## Finite sums of real entries in the extended reals -/

/-- The coercion from the reals to the extended reals commutes with finite sums. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- A finite sum of extended reals that are all real is real. -/
theorem sum_real {ι : Type*} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a s ha ih =>
    obtain ⟨r, hr⟩ := ih (fun i hi => h i (Finset.mem_insert_of_mem hi))
    obtain ⟨q, hq⟩ := h a (Finset.mem_insert_self a s)
    exact ⟨q + r, by rw [Finset.sum_insert ha, hr, hq, EReal.coe_add]⟩

/-- LINEARITY OF A FINITE WEIGHTED SUM UNDER A RIGHT PRODUCT. For real entries `X e k`, `W k`, `ν e`,
    `∑ e ∈ S, (∑ k, X e k * W k) * ν e = ∑ k, (∑ e ∈ S, X e k * ν e) * W k`: both sides are
    `∑ e ∈ S, ∑ k, X e k * W k * ν e`. Multiplication does not distribute over addition at the infinities of the
    extended reals, so the entries are assumed real; the identity is then the one of the reals. -/
theorem sum_mul_comm_of_real {E K : Type*} [Fintype K] (S : Finset E) (X : E → K → EReal) (W : K → EReal)
    (ν : E → EReal) (hX : ∀ e k, ∃ r : ℝ, X e k = (r : EReal)) (hW : ∀ k, ∃ r : ℝ, W k = (r : EReal))
    (hν : ∀ e, ∃ r : ℝ, ν e = (r : EReal)) :
    ∑ e ∈ S, (∑ k, X e k * W k) * ν e = ∑ k, (∑ e ∈ S, X e k * ν e) * W k := by
  choose x hx using hX
  choose wr hw using hW
  choose n hn using hν
  have hL : ∀ e, (∑ k, X e k * W k) * ν e = (((∑ k, x e k * wr k) * n e : ℝ) : EReal) := by
    intro e
    rw [EReal.coe_mul, coe_finset_sum, hn]
    congr 1
    exact Finset.sum_congr rfl fun k _ => by rw [hx, hw, EReal.coe_mul]
  have hR : ∀ k, (∑ e ∈ S, X e k * ν e) * W k = (((∑ e ∈ S, x e k * n e) * wr k : ℝ) : EReal) := by
    intro k
    rw [EReal.coe_mul, coe_finset_sum, hw]
    congr 1
    exact Finset.sum_congr rfl fun e _ => by rw [hx, hn, EReal.coe_mul]
  rw [Finset.sum_congr rfl (fun e _ => hL e), Finset.sum_congr rfl (fun k _ => hR k), ← coe_finset_sum,
    ← coe_finset_sum]
  congr 1
  simp_rw [Finset.sum_mul]
  rw [Finset.sum_comm]
  exact Finset.sum_congr rfl fun k _ => Finset.sum_congr rfl fun e _ => by ring

/-! ## The row scatter-add read at an index -/

section Rows
variable {B C N w : Nat} {φ : FTy} (wf : ScatterDims.WF ⟨2, ![B, C]⟩ ⟨2, ![N, 1]⟩ ⟨2, ![N, C]⟩ [1] [0] [0] 1)

open Cert.Lib.ScatterRows

/-- The scatter-indices index of an update index is `[n, 0]`, `n` the update's row. -/
theorem rowIdx_eq (j : (⟨2, ![N, C]⟩ : Shape).Idx) :
    rowIdx j = ix2 (⟨(j 0).val, idx2_lt0 j⟩ : Fin N) (0 : Fin 1) := by
  funext a
  match a with
  | ⟨0, _⟩ => rfl
  | ⟨1, _⟩ => rfl

/-- Update `(n, c')` of the row scatter lands on the operand's element `(b, c)` exactly when the scatter index
    `ids[n, 0]`, read signed, is `b` and `c' = c`: with `b < B` the two range conditions hold by themselves. -/
theorem resultIdx?_rows_ix2_iff (idx : IVec ⟨2, ![N, 1]⟩ w) (j : (⟨2, ![N, C]⟩ : Shape).Idx) (b : Fin B) (c : Fin C) :
    (rowsScatter B C N wf).resultIdx? j idx = some (ix2 b c) ↔
      (idx (ix2 (⟨(j 0).val, idx2_lt0 j⟩ : Fin N) (0 : Fin 1))).toInt = (b.val : Int) ∧ (j 1).val = c.val := by
  rw [resultIdx?_rows_iff, rowIdx_eq]
  have hb : b.val < B := b.isLt
  constructor
  · rintro ⟨_, _, e0, e1⟩
    have e0' : (b.val : Int) = (idx (ix2 (⟨(j 0).val, idx2_lt0 j⟩ : Fin N) (0 : Fin 1))).toInt := e0
    have e1' : c.val = (j 1).val := e1
    exact ⟨e0'.symm, e1'.symm⟩
  · rintro ⟨e0, e1⟩
    have e0' : ((ix2 b c 0).val : Int) = (idx (ix2 (⟨(j 0).val, idx2_lt0 j⟩ : Fin N) (0 : Fin 1))).toInt := e0.symm
    have e1' : (ix2 b c 1).val = (j 1).val := e1.symm
    refine ⟨?_, ?_, e0', e1'⟩
    · rw [e0]; exact Int.natCast_nonneg _
    · rw [e0]; exact_mod_cast hb

/-- THE ROW SCATTER-ADD (A SEGMENT SUM) READ AT AN INDEX: element `(b, c)` of the result is the operand's element
    plus the sum, over the update rows `e` whose scatter index `ids[e, 0]`, read signed, is `b`, of the updates'
    element `(e, c)`. The set of rows depends on `b` and the indices only, not on the column. (The update indices
    `(e, c')` landing on `(b, c)` are those with `ids[e, 0] = b` and `c' = c`; `(e, c') ↦ e` and `e ↦ (e, c)` are
    inverse bijections between them and the rows.) -/
theorem scatterAdd_rows_apply (x : FVec Ideal ⟨2, ![B, C]⟩ φ) (idx : IVec ⟨2, ![N, 1]⟩ w)
    (upd : FVec Ideal ⟨2, ![N, C]⟩ φ) (b : Fin B) (c : Fin C) :
    Host.scatterAdd (F := Ideal) (rowsScatter B C N wf) x idx upd (ix2 b c)
      = x (ix2 b c) + ∑ e ∈ Finset.univ.filter (fun e : Fin N => (idx (ix2 e (0 : Fin 1))).toInt = (b.val : Int)),
          upd (ix2 e c) := by
  rw [scatterAdd_apply]
  unfold Ideal.hostScatterAdd
  congr 1
  have hleft : ∀ j : (⟨2, ![N, C]⟩ : Shape).Idx, (j 1).val = c.val →
      ix2 (⟨(j 0).val, idx2_lt0 j⟩ : Fin N) c = j := by
    intro j hj
    funext a
    match a with
    | ⟨0, _⟩ => rfl
    | ⟨1, _⟩ =>
      refine Fin.ext ?_
      show c.val = (j 1).val
      exact hj.symm
  refine Finset.sum_nbij' (fun j => (⟨(j 0).val, idx2_lt0 j⟩ : Fin N)) (fun e => ix2 e c) ?_ ?_ ?_ ?_ ?_
  · intro j hj
    have h := (resultIdx?_rows_ix2_iff wf idx j b c).mp (Finset.mem_filter.mp hj).2
    exact Finset.mem_filter.mpr ⟨Finset.mem_univ _, h.1⟩
  · intro e he
    have h := (Finset.mem_filter.mp he).2
    exact Finset.mem_filter.mpr ⟨Finset.mem_univ _, (resultIdx?_rows_ix2_iff wf idx (ix2 e c) b c).mpr ⟨h, rfl⟩⟩
  · intro j hj
    exact hleft j ((resultIdx?_rows_ix2_iff wf idx j b c).mp (Finset.mem_filter.mp hj).2).2
  · intro e _
    rfl
  · intro j hj
    exact congrArg upd (hleft j ((resultIdx?_rows_ix2_iff wf idx j b c).mp (Finset.mem_filter.mp hj).2).2).symm

end Rows

/-! ## The row scatter-add of real rows, and under a right matrix product -/

section RowsReal
variable {B C N w : Nat} {φ : FTy} (wf : ScatterDims.WF ⟨2, ![B, C]⟩ ⟨2, ![N, 1]⟩ ⟨2, ![N, C]⟩ [1] [0] [0] 1)

open Cert.Lib.ScatterRows

/-- Element `(b, c)` of the row scatter-add is a real number when the operand's element `(b, c)` and every update
    element `(e, c)` of column `c` are: it is the operand's element plus a finite sum of such update elements. -/
theorem scatterAdd_rows_real (x : FVec Ideal ⟨2, ![B, C]⟩ φ) (idx : IVec ⟨2, ![N, 1]⟩ w)
    (upd : FVec Ideal ⟨2, ![N, C]⟩ φ) (b : Fin B) (c : Fin C) (hx : ∃ r : ℝ, x (ix2 b c) = (r : EReal))
    (hupd : ∀ e : Fin N, ∃ r : ℝ, upd (ix2 e c) = (r : EReal)) :
    ∃ r : ℝ, Host.scatterAdd (F := Ideal) (rowsScatter B C N wf) x idx upd (ix2 b c) = (r : EReal) := by
  rw [scatterAdd_rows_apply]
  obtain ⟨r, hr⟩ := hx
  obtain ⟨q, hq⟩ := sum_real (Finset.univ.filter (fun e : Fin N => (idx (ix2 e (0 : Fin 1))).toInt = (b.val : Int)))
    (fun e => upd (ix2 e c)) (fun e _ => hupd e)
  exact ⟨r + q, by rw [hr, hq, EReal.coe_add]⟩

end RowsReal

open Cert.Lib.ScatterRows in
/-- A SEGMENT SUM COMMUTES WITH A RIGHT MATRIX PRODUCT. Let the update rows be `UK (e, k) = X e k * ν e` (width `K`)
    and `UJ (e, j) = (∑ k, X e k * W k j) * ν e` (width `J`: the rows `X e ·` times the matrix `W`, weighted by
    `ν e`), with real `X`, `W`, `ν`, and scatter both into zero operands at the same indices. Then the row scatter-add
    of `UJ` is the row scatter-add of `UK` times `W`:
    `(scatter UJ) (b, j) = ∑ k, (scatter UK) (b, k) * W k j`. Both scatters sum over the same set of rows, those whose
    scatter index is `b`, and over real entries the finite sums exchange. -/
theorem scatterAdd_rows_mul_right {B N K J w : Nat} {φ : FTy}
    (wfK : ScatterDims.WF ⟨2, ![B, K]⟩ ⟨2, ![N, 1]⟩ ⟨2, ![N, K]⟩ [1] [0] [0] 1)
    (wfJ : ScatterDims.WF ⟨2, ![B, J]⟩ ⟨2, ![N, 1]⟩ ⟨2, ![N, J]⟩ [1] [0] [0] 1)
    (idx : IVec ⟨2, ![N, 1]⟩ w) (zK : FVec Ideal ⟨2, ![B, K]⟩ φ) (zJ : FVec Ideal ⟨2, ![B, J]⟩ φ)
    (hzK : ∀ i, zK i = 0) (hzJ : ∀ i, zJ i = 0)
    (UK : FVec Ideal ⟨2, ![N, K]⟩ φ) (UJ : FVec Ideal ⟨2, ![N, J]⟩ φ)
    (X : Fin N → Fin K → EReal) (W : Fin K → Fin J → EReal) (ν : Fin N → EReal)
    (hX : ∀ e k, ∃ r : ℝ, X e k = (r : EReal)) (hW : ∀ k j, ∃ r : ℝ, W k j = (r : EReal))
    (hν : ∀ e, ∃ r : ℝ, ν e = (r : EReal))
    (hUK : ∀ e k, UK (ix2 e k) = X e k * ν e) (hUJ : ∀ e j, UJ (ix2 e j) = (∑ k, X e k * W k j) * ν e)
    (b : Fin B) (j : Fin J) :
    Host.scatterAdd (F := Ideal) (rowsScatter B J N wfJ) zJ idx UJ (ix2 b j)
      = ∑ k : Fin K, Host.scatterAdd (F := Ideal) (rowsScatter B K N wfK) zK idx UK (ix2 b k) * W k j := by
  have hk : ∀ k : Fin K, Host.scatterAdd (F := Ideal) (rowsScatter B K N wfK) zK idx UK (ix2 b k)
      = ∑ e ∈ Finset.univ.filter (fun e : Fin N => (idx (ix2 e (0 : Fin 1))).toInt = (b.val : Int)),
          X e k * ν e := by
    intro k
    rw [scatterAdd_rows_apply, hzK, zero_add]
    exact Finset.sum_congr rfl fun e _ => hUK e k
  rw [scatterAdd_rows_apply, hzJ, zero_add]
  refine Eq.trans (Finset.sum_congr rfl fun e _ => hUJ e j) ?_
  refine Eq.trans (sum_mul_comm_of_real _ X (fun k => W k j) ν hX (fun k => hW k j) hν) ?_
  exact Finset.sum_congr rfl fun k _ => by rw [hk k]

end Cert.Lib.SegmentSum

end
-- ==== Proof.LibGatherRows.lean ====
/-
  A general lemma: the "row" gather read at an index.

  What `table[ids]` of a table `[B, C]` at an integer array `ids : [N]` lowers to: `stablehlo.gather` with
  offset_dims `[1]`, collapsed_slice_dims `[0]`, start_index_map `[0]`, slice_sizes `[1, C]` and index_vector_dim 1
  over the indices as `[N, 1]`. Result element `(n, c)` is the table's element `(r, c)` where the row `r` is the
  start index `ids[n, 0]` read as a signed integer and clamped into `[0, B − 1]`.
-/
import Idealize.ShloMosaic.Lib.ValueIdx

noncomputable section

namespace Cert.Lib.GatherRows

open Idealize.ShloMosaic Idealize.ShloMosaic.ValueIdx

variable {α : Type}

/-- The dimension numbers of a row gather: operand `[B, C]`, start indices `[N, 1]`, result `[N, C]`; the operand's
    axis 0 is collapsed and indexed, its axis 1 is copied whole (slice sizes `[1, C]`). The conditions `wf` are decided
    on a program's literal shapes. -/
abbrev rowsDims (B C N : Nat)
    (wf : GatherDims.WF ⟨2, ![B, C]⟩ ⟨2, ![N, 1]⟩ ⟨2, ![N, C]⟩ [1] [0] [] [0] [] 1 ![1, C]) :
    GatherDims ⟨2, ![B, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The start-indices index `[n, 0]` of the result index `(n, c)`. -/
abbrev rowIdx {N C : Nat} (y : (⟨2, ![N, C]⟩ : Shape).Idx) : (⟨2, ![N, 1]⟩ : Shape).Idx :=
  fun a => match a with | ⟨0, _⟩ => ⟨(y 0).val, idx2_lt0 y⟩ | ⟨1, _⟩ => ⟨0, Nat.one_pos⟩

/-- The operand index `(r, c)` from a row number `r < B` and the column of the result index `y = (n, c)`. -/
abbrev rowAt {B C N : Nat} (r : Nat) (hr : r < B) (y : (⟨2, ![N, C]⟩ : Shape).Idx) : (⟨2, ![B, C]⟩ : Shape).Idx :=
  fun a => match a with | ⟨0, _⟩ => ⟨r, hr⟩ | ⟨1, _⟩ => ⟨(y 1).val, idx2_lt1 y⟩

/-- THE ROW GATHER READ AT `(n, c)`: the operand at row `ids[n, 0]`, read signed and clamped into `[0, B − 1]`,
    and column `c`. -/
theorem gather_rows_apply {B C N w : Nat} (hB : 0 < B)
    (wf : GatherDims.WF ⟨2, ![B, C]⟩ ⟨2, ![N, 1]⟩ ⟨2, ![N, C]⟩ [1] [0] [] [0] [] 1 ![1, C])
    (x : (⟨2, ![B, C]⟩ : Shape).Idx → α) (idx : IVec ⟨2, ![N, 1]⟩ w) (y : (⟨2, ![N, C]⟩ : Shape).Idx) :
    Host.gather (rowsDims B C N wf) x idx y
      = x (rowAt (min (idx (rowIdx y)).toInt.toNat (B - 1)) (by omega) y) := by
  unfold Host.gather
  congr 1
  funext a
  refine Fin.ext ?_
  match a with
  | ⟨0, _⟩ =>
    show (rowsDims B C N wf).start y idx 0 + (rowsDims B C N wf).batchCoord y 0 + (rowsDims B C N wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims B C N wf).startIndexMap from List.mem_singleton.mpr rfl)]
    have hsi : (rowsDims B C N wf).siIdx y ⟨List.idxOf (0 : Fin 2) (rowsDims B C N wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowsDims B C N wf).start y idx 1 + (rowsDims B C N wf).batchCoord y 1 + (rowsDims B C N wf).offCoord y 1 = (y 1).val
    rw [GatherDims.batchCoord_eq_zero _ _ _ List.not_mem_nil]
    have hs : (rowsDims B C N wf).start y idx 1 = 0 := by
      unfold GatherDims.start
      rw [dif_neg (show (1 : Fin 2) ∉ (rowsDims B C N wf).startIndexMap from
        (by decide : (1 : Fin 2) ∉ ([0] : List (Fin 2))))]
    have hk : (1 : Fin 2) ∈ (rowsDims B C N wf).sKept :=
      (GatherDims.mem_sKept _ _).mpr ⟨(by decide : (1 : Fin 2) ∉ ([0] : List (Fin 2))), List.not_mem_nil⟩
    rw [hs]
    unfold GatherDims.offCoord
    rw [dif_pos hk]
    simp only [Nat.zero_add, Nat.add_zero]
    rfl

/-- The row gather with the start index inside the table: no clamping, the row read is `ids[n, 0]` itself. -/
theorem gather_rows_apply_of_inBounds {B C N w : Nat}
    (wf : GatherDims.WF ⟨2, ![B, C]⟩ ⟨2, ![N, 1]⟩ ⟨2, ![N, C]⟩ [1] [0] [] [0] [] 1 ![1, C])
    (x : (⟨2, ![B, C]⟩ : Shape).Idx → α) (idx : IVec ⟨2, ![N, 1]⟩ w) (y : (⟨2, ![N, C]⟩ : Shape).Idx)
    (h0 : 0 ≤ (idx (rowIdx y)).toInt) (hlt : (idx (rowIdx y)).toInt < B) :
    Host.gather (rowsDims B C N wf) x idx y = x (rowAt (idx (rowIdx y)).toInt.toNat (by omega) y) := by
  rw [gather_rows_apply (by omega) wf x idx y]
  congr 1
  funext a
  refine Fin.ext ?_
  match a with
  | ⟨0, _⟩ =>
    show min (idx (rowIdx y)).toInt.toNat (B - 1) = (idx (rowIdx y)).toInt.toNat
    omega
  | ⟨1, _⟩ => rfl

end Cert.Lib.GatherRows

end
-- ==== Proof.RefSegLinear.lean ====
/-
  The linearity step of the reference's first layer: the segment sum, over the edges into a node, of the weighted rows
  of x·W1 is the segment sum of the weighted rows of x, times W1. For every node n and hidden unit j,
  Σ_{e : dst e = n} (Σ_k x[src e, k] · W1[k, j]) · norm[e] = Σ_k (Σ_{e : dst e = n} x[src e, k] · norm[e]) · W1[k, j].
-/
import proofs.«124716_j10282151706797_2_alg».proof.Proof.RefSeg
import proofs.«124716_j10282151706797_2_alg».proof.Proof.RefDots
import proofs.«124716_j10282151706797_2_alg».proof.Proof.LibSegmentSum
import proofs.«124716_j10282151706797_2_alg».proof.Proof.LibGatherRows
import proofs.«124716_j10282151706797_2_alg».proof.Proof.LibEdgeWeight
import Idealize.ShloMosaic.Lib.Pipeline.Value

noncomputable section

open scoped BigOperators

namespace Cert.ReferenceIdeal.Bridge

open Idealize.ShloMosaic Idealize.ShloMosaic.ValueIdx Cert.ReferenceIdeal

/-- THE ROW GATHER READ AT `(e, c)`, by coordinates: the operand at row `ids[e, 0]`, read signed and clamped into
    `[0, B − 1]`, and column `c`. -/
theorem gather_rows_ix2 {α : Type} {B C N w : Nat} (hB : 0 < B)
    (wf : GatherDims.WF ⟨2, ![B, C]⟩ ⟨2, ![N, 1]⟩ ⟨2, ![N, C]⟩ [1] [0] [] [0] [] 1 ![1, C])
    (x : (⟨2, ![B, C]⟩ : Shape).Idx → α) (idx : IVec ⟨2, ![N, 1]⟩ w) (e : Fin N) (c : Fin C) :
    Host.gather (Cert.Lib.GatherRows.rowsDims B C N wf) x idx (ix2 e c)
      = x (ix2 (⟨min (idx (ix2 e (0 : Fin 1))).toInt.toNat (B - 1), by omega⟩ : Fin B) c) := by
  rw [Cert.Lib.GatherRows.gather_rows_apply hB wf x idx (ix2 e c)]
  have hrow : Cert.Lib.GatherRows.rowIdx (ix2 e c) = ix2 e (0 : Fin 1) := by
    funext a
    match a with
    | ⟨0, _⟩ => rfl
    | ⟨1, _⟩ => rfl
  congr 1
  funext a
  refine Fin.ext ?_
  match a with
  | ⟨0, _⟩ =>
    show min (idx (Cert.Lib.GatherRows.rowIdx (ix2 e c))).toInt.toNat (B - 1)
      = min (idx (ix2 e (0 : Fin 1))).toInt.toNat (B - 1)
    rw [hrow]
  | ⟨1, _⟩ => rfl

variable [Cert.ReferenceIdeal.Facts]
open Facts₀ Facts

/-- The edge weights, as a column broadcast along `C` columns, read at `(e, c)`: the weight of the edge `e`. -/
theorem normCol_bcast_apply {C : Nat}
    (hb : (⟨2, ![600000, 1]⟩ : Shape).BroadcastsInDim ⟨2, ![600000, C]⟩ (![0, 1] : Fin 2 → Fin 2))
    (x1 : IVec S2x500000 32) (e : Fin 600000) (c : Fin C) :
    broadcastInDim ⟨2, ![600000, C]⟩ ![0, 1] hb (RefValue.normCol (F := Ideal) x1) (ix2 e c)
      = RefValue.norm (F := Ideal) x1 (ix1 e) := by
  have h1 : broadcastInDim ⟨2, ![600000, C]⟩ ![0, 1] hb (RefValue.normCol (F := Ideal) x1) (ix2 e c)
      = RefValue.normCol (F := Ideal) x1 (ix2 e (0 : Fin 1)) :=
    broadcastInDim_apply _ hb _ (ix2 e c) (ix2 e (0 : Fin 1)) (fun a => by
      match a with
      | ⟨0, _⟩ => rfl
      | ⟨1, _⟩ => rfl)
  have h2 : RefValue.normCol (F := Ideal) x1 (ix2 e (0 : Fin 1)) = RefValue.norm (F := Ideal) x1 (ix1 e) :=
    broadcastInDim_apply _ bcast_S600000_S600000x1_0 _ (ix2 e (0 : Fin 1)) (ix1 e) (fun a => by
      match a with
      | ⟨0, _⟩ => rfl)
  exact h1.trans h2

/-- THE LINEARITY STEP. The reference's segment sum of the weighted rows of `x·W1` (width 256), read at node `n` and
    hidden unit `j`, is the sum over `k` of the segment sum of the weighted rows of `x` (width 128) at `(n, k)`
    times `W1[k, j]`. Both segment sums run over the same edges, those whose destination is `n`, with the same
    source rows and the same weights; the entries are real, so the two finite sums exchange. -/
theorem seg1_linear
    (wfS : ScatterDims.WF ⟨2, ![100000, 128]⟩ ⟨2, ![600000, 1]⟩ ⟨2, ![600000, 128]⟩ [1] [0] [0] 1)
    (wfG : GatherDims.WF ⟨2, ![100000, 128]⟩ ⟨2, ![600000, 1]⟩ ⟨2, ![600000, 128]⟩ [1] [0] [] [0] [] 1 ![1, 128])
    (hb0 : (⟨0, ![]⟩ : Shape).BroadcastsInDim ⟨2, ![100000, 128]⟩ (![] : Fin 0 → Fin 2))
    (hbN : (⟨2, ![600000, 1]⟩ : Shape).BroadcastsInDim ⟨2, ![600000, 128]⟩ (![0, 1] : Fin 2 → Fin 2))
    (x0 : FVec Ideal S100000x128 .f32) (x1 : IVec S2x500000 32) (x2 : FVec Ideal S128x256 .f32)
    (hx0 : ∀ i, ∃ r : ℝ, x0 i = (r : EReal)) (hx2 : ∀ i, ∃ r : ℝ, x2 i = (r : EReal))
    (hν : ∀ e, ∃ r : ℝ, RefValue.norm (F := Ideal) x1 e = (r : EReal))
    (n : Fin 100000) (j : Fin 256) :
    RefValue.seg1 (F := Ideal) x0 x1 x2 (ix2 n j)
      = ∑ k : Fin 128, Host.scatterAdd (F := Ideal) (Cert.Lib.ScatterRows.rowsScatter 100000 128 600000 wfS)
          (broadcastInDim ⟨2, ![100000, 128]⟩ ![] hb0 (constant (F := Ideal) ⟨0, ![]⟩ .f32 0x00000000#32))
          (RefValue.dstCol (F := Ideal) x1)
          (mulf (F := Ideal) (φ := .f32)
            (Host.gather (Cert.Lib.GatherRows.rowsDims 100000 128 600000 wfG) x0
              (RefValue.wrapCol (F := Ideal) (RefValue.srcIdx (F := Ideal) x1)))
            (broadcastInDim ⟨2, ![600000, 128]⟩ ![0, 1] hbN (RefValue.normCol (F := Ideal) x1))) (ix2 n k)
          * x2 (ix2 k j) := by
  -- the sources' index table, and the row of the feature matrix an edge reads
  let src : IVec ⟨2, ![600000, 1]⟩ 32 := RefValue.wrapCol (F := Ideal) (RefValue.srcIdx (F := Ideal) x1)
  let row : Fin 600000 → Fin 100000 := fun e =>
    ⟨min (src (ix2 e (0 : Fin 1))).toInt.toNat (100000 - 1), by omega⟩
  have hUK : ∀ (e : Fin 600000) (k : Fin 128),
      mulf (F := Ideal) (φ := .f32)
        (Host.gather (Cert.Lib.GatherRows.rowsDims 100000 128 600000 wfG) x0 src)
        (broadcastInDim ⟨2, ![600000, 128]⟩ ![0, 1] hbN (RefValue.normCol (F := Ideal) x1)) (ix2 e k)
        = x0 (ix2 (row e) k) * RefValue.norm (F := Ideal) x1 (ix1 e) := by
    intro e k
    rw [mulf_apply, gather_rows_ix2 (by omega) wfG x0 src e k, normCol_bcast_apply hbN x1 e k]
  have hUJ : ∀ (e : Fin 600000) (j : Fin 256),
      mulf (F := Ideal) (φ := .f32)
        (Host.gather (Cert.Lib.GatherRows.rowsDims 100000 256 600000
            gather_S100000x256_S600000x1_S600000x256_1_0_n_n_0_1_1256_wf)
          (Host.dotGeneral (F := Ideal) dot_S100000x128_S128x256_S100000x256_1_0_0_1_n_n none x0 x2) src)
        (broadcastInDim ⟨2, ![600000, 256]⟩ ![0, 1] bcast_S600000x1_S600000x256_0_1
          (RefValue.normCol (F := Ideal) x1)) (ix2 e j)
        = (∑ k : Fin 128, x0 (ix2 (row e) k) * x2 (ix2 k j)) * RefValue.norm (F := Ideal) x1 (ix1 e) := by
    intro e j
    rw [mulf_apply, gather_rows_ix2 (by omega) gather_S100000x256_S600000x1_S600000x256_1_0_n_n_0_1_1256_wf _ src e j,
      normCol_bcast_apply bcast_S600000x1_S600000x256_0_1 x1 e j, Cert.ReferenceIdeal.Dots.dot1_apply x0 x2 (row e) j]
  exact Cert.Lib.SegmentSum.scatterAdd_rows_mul_right wfS scatter_S100000x256_S600000x1_S600000x256_1_0_0_1_wf
    (RefValue.dstCol (F := Ideal) x1) _ _
    (fun i => Cert.Lib.EdgeWeight.splat_zero_apply hb0 i)
    (fun i => Cert.Lib.EdgeWeight.splat_zero_apply bcast_S_S100000x256 i)
    _ _ (fun e k => x0 (ix2 (row e) k)) (fun k j => x2 (ix2 k j)) (fun e => RefValue.norm (F := Ideal) x1 (ix1 e))
    (fun e k => hx0 _) (fun k j => hx2 _) (fun e => hν _) hUK hUJ n j

end Cert.ReferenceIdeal.Bridge

end
-- ==== Proof.Bridge.lean ====
/-
  The kernel program's host terms and the reference's are the same terms, and the kernel's two-layer projection of the
  aggregated features is the reference's projection: for every node n and output unit o,
  Σ_j max(Σ_k agg[n, k]·W1[k, j] + b1[j], 0)·W2[j, o], with agg[n, k] = Σ_{e : dst e = n} x[src e, k]·norm[e],
  is Σ_j max(seg1[n, j] + b1[j], 0)·W2[j, o], with seg1[n, j] = Σ_{e : dst e = n} (x·W1)[src e, j]·norm[e],
  since the segment sum exchanges with the product by W1.
-/
import proofs.«124716_j10282151706797_2_alg».proof.Proof.KernelTerms
import proofs.«124716_j10282151706797_2_alg».proof.Proof.Fused
import proofs.«124716_j10282151706797_2_alg».proof.Proof.RefProj
import proofs.«124716_j10282151706797_2_alg».proof.Proof.RefSegLinear
import proofs.«124716_j10282151706797_2_alg».proof.Proof.RefSeg
import Idealize.ShloMosaic.Lib.Pipeline.Value
import Idealize.ShloMosaic.Lib.ValueIdx

noncomputable section

open scoped BigOperators

namespace Cert.Bridge

open Idealize.ShloMosaic Idealize.ShloMosaic.ValueIdx

variable [Cert.KernelIdeal.Facts] [Cert.ReferenceIdeal.Facts]

/-! ## The shared terms -/

/-- The two programs build the edges' sources by the same operations. -/
theorem srcIdx_eq (x1 : IVec Cert.KernelIdeal.S2x500000 32) :
    Cert.KernelIdeal.Host.srcIdx (F := Ideal) x1 = Cert.ReferenceIdeal.RefValue.srcIdx (F := Ideal) x1 := rfl

/-- The two programs build the edges' destinations by the same operations. -/
theorem dstIdx_eq (x1 : IVec Cert.KernelIdeal.S2x500000 32) :
    Cert.KernelIdeal.Host.dstIdx (F := Ideal) x1 = Cert.ReferenceIdeal.RefValue.dstIdx (F := Ideal) x1 := rfl

/-- The destinations as a column are the same. -/
theorem dstCol_eq (x1 : IVec Cert.KernelIdeal.S2x500000 32) :
    Cert.KernelIdeal.Host.dstCol (F := Ideal) x1 = Cert.ReferenceIdeal.RefValue.dstCol (F := Ideal) x1 := rfl

/-- The wrapped index columns are the same. -/
theorem wrapCol_eq (v : IVec Cert.KernelIdeal.S600000 32) :
    Cert.KernelIdeal.Host.wrapCol (F := Ideal) v = Cert.ReferenceIdeal.RefValue.wrapCol (F := Ideal) v := rfl

/-- The degrees are the same. -/
theorem deg_eq (x1 : IVec Cert.KernelIdeal.S2x500000 32) :
    Cert.KernelIdeal.Host.deg (F := Ideal) x1 = Cert.ReferenceIdeal.RefValue.deg (F := Ideal) x1 := rfl

/-- The node weights are the same. -/
theorem dinv_eq (x1 : IVec Cert.KernelIdeal.S2x500000 32) :
    Cert.KernelIdeal.Host.dinv (F := Ideal) x1 = Cert.ReferenceIdeal.RefValue.dinv (F := Ideal) x1 := rfl

/-- The edge weights are the same. -/
theorem norm_eq (x1 : IVec Cert.KernelIdeal.S2x500000 32) :
    Cert.KernelIdeal.Host.norm (F := Ideal) x1 = Cert.ReferenceIdeal.RefValue.norm (F := Ideal) x1 := rfl

/-- The edge weights as a column are the same. -/
theorem normCol_eq (x1 : IVec Cert.KernelIdeal.S2x500000 32) :
    Cert.KernelIdeal.Host.normCol (F := Ideal) x1 = Cert.ReferenceIdeal.RefValue.normCol (F := Ideal) x1 := rfl

/-! ## The aggregated features as a row scatter of a row gather -/

/-- The kernel program's aggregated features are the row scatter, at the edges' destinations, of the rows of `x`
    gathered at the edges' sources and weighted. -/
theorem agg_eq_rows (x0 : FVec Ideal Cert.KernelIdeal.S100000x128 .f32) (x1 : IVec Cert.KernelIdeal.S2x500000 32) :
    Cert.KernelIdeal.Host.agg (F := Ideal) x0 x1
      = Host.scatterAdd (F := Ideal)
          (Cert.Lib.ScatterRows.rowsScatter 100000 128 600000 Cert.KernelIdeal.Facts₀.scatter_S100000x128_S600000x1_S600000x128_1_0_0_1_wf)
          (broadcastInDim ⟨2, ![100000, 128]⟩ ![] Cert.KernelIdeal.Facts₀.bcast_S_S100000x128 (constant (F := Ideal) ⟨0, ![]⟩ .f32 0x00000000#32))
          (Cert.ReferenceIdeal.RefValue.dstCol (F := Ideal) x1)
          (mulf (F := Ideal) (φ := .f32)
            (Host.gather (Cert.Lib.GatherRows.rowsDims 100000 128 600000 Cert.KernelIdeal.Facts₀.gather_S100000x128_S600000x1_S600000x128_1_0_n_n_0_1_1128_wf) x0
              (Cert.ReferenceIdeal.RefValue.wrapCol (F := Ideal) (Cert.ReferenceIdeal.RefValue.srcIdx (F := Ideal) x1)))
            (broadcastInDim ⟨2, ![600000, 128]⟩ ![0, 1] Cert.KernelIdeal.Facts₀.bcast_S600000x1_S600000x128_0_1 (Cert.ReferenceIdeal.RefValue.normCol (F := Ideal) x1))) := by
  unfold Cert.KernelIdeal.Host.agg
  rw [dstCol_eq, srcIdx_eq, wrapCol_eq, normCol_eq]
  rfl

/-! ## The bias row -/

/-- The first bias, as a `[1, 256]` row, read at column `j` is its entry `j`. -/
theorem biasRow_apply (x3 : FVec Ideal Cert.KernelIdeal.S256 .f32) (j : Fin 256) :
    Cert.KernelIdeal.Host.biasRow (F := Ideal) x3 (ix2 (0 : Fin 1) j) = x3 (ix1 j) := by
  unfold Cert.KernelIdeal.Host.biasRow
  refine shapeCast_apply x3 _ (ix2 (0 : Fin 1) j) (ix1 j) ?_
  rw [Shape.rowMajor_val_one, Shape.rowMajor_val_two]
  show j.val = 0 * 256 + j.val
  omega

/-! ## The bridge -/

/-- The kernel's two-layer projection of the aggregated features is the reference's projection. -/
theorem fused_eq_proj (x0 : FVec Ideal Cert.KernelIdeal.S100000x128 .f32) (x1 : IVec Cert.KernelIdeal.S2x500000 32)
    (x2 : FVec Ideal Cert.KernelIdeal.S128x256 .f32) (x3 : FVec Ideal Cert.KernelIdeal.S256 .f32) (x4 : FVec Ideal Cert.KernelIdeal.S256x64 .f32)
    (hx0 : ∀ i, ∃ r : ℝ, x0 i = (r : EReal)) (hx2 : ∀ i, ∃ r : ℝ, x2 i = (r : EReal))
    (hν : ∀ e, ∃ r : ℝ, Cert.ReferenceIdeal.RefValue.norm (F := Ideal) x1 e = (r : EReal)) :
    Cert.KernelIdeal.Blocks.fused (Cert.KernelIdeal.Host.agg (F := Ideal) x0 x1) x2 (Cert.KernelIdeal.Host.biasRow (F := Ideal) x3) x4
      = Cert.ReferenceIdeal.RefValue.proj (F := Ideal) x0 x1 x2 x3 x4 := by
  funext i
  obtain ⟨n, o, rfl⟩ : ∃ (n : Fin 100000) (o : Fin 64), i = ix2 n o := ⟨i 0, i 1, eq_ix2 i⟩
  rw [Cert.ReferenceIdeal.Bridge.proj_apply]
  show (∑ j : Fin 256, max ((∑ k : Fin 128, Cert.KernelIdeal.Host.agg (F := Ideal) x0 x1 (ix2 n k) * x2 (ix2 k j))
      + Cert.KernelIdeal.Host.biasRow (F := Ideal) x3 (ix2 (0 : Fin 1) j)) 0 * x4 (ix2 j o)) = _
  refine Finset.sum_congr rfl fun j _ => ?_
  have hseg : Cert.ReferenceIdeal.RefValue.seg1 (F := Ideal) x0 x1 x2 (ix2 n j)
      = ∑ k : Fin 128, Cert.KernelIdeal.Host.agg (F := Ideal) x0 x1 (ix2 n k) * x2 (ix2 k j) := by
    rw [Cert.ReferenceIdeal.Bridge.seg1_linear Cert.KernelIdeal.Facts₀.scatter_S100000x128_S600000x1_S600000x128_1_0_0_1_wf
      Cert.KernelIdeal.Facts₀.gather_S100000x128_S600000x1_S600000x128_1_0_n_n_0_1_1128_wf
      Cert.KernelIdeal.Facts₀.bcast_S_S100000x128 Cert.KernelIdeal.Facts₀.bcast_S600000x1_S600000x128_0_1 x0 x1 x2 hx0 hx2 hν n j, agg_eq_rows]
  rw [hseg, biasRow_apply]

/-! ## The programs' common ending -/

/-- The kernel program's second aggregation of the reference's projection, plus the last bias, is the reference's
    result: the operations are the same, and the widening of the kernel's output rows is the identity on the
    extended reals. -/
theorem tail_eq_res (x0 : FVec Ideal Cert.KernelIdeal.S100000x128 .f32) (x1 : IVec Cert.KernelIdeal.S2x500000 32)
    (x2 : FVec Ideal Cert.KernelIdeal.S128x256 .f32) (x3 : FVec Ideal Cert.KernelIdeal.S256 .f32) (x4 : FVec Ideal Cert.KernelIdeal.S256x64 .f32)
    (x5 : FVec Ideal Cert.KernelIdeal.S64 .f32) :
    Cert.KernelIdeal.Host.tail (F := Ideal) (Cert.ReferenceIdeal.RefValue.proj (F := Ideal) x0 x1 x2 x3 x4) x1 x5
      = Cert.ReferenceIdeal.RefValue.res (F := Ideal) x0 x1 x2 x3 x4 x5 := by
  unfold Cert.KernelIdeal.Host.tail Cert.ReferenceIdeal.RefValue.res
  rw [dstCol_eq, srcIdx_eq, wrapCol_eq, normCol_eq]
  rfl

end Cert.Bridge

end
-- ==== Proof.RefNormReal.lean ====
import proofs.«124716_j10282151706797_2_alg».proof.Proof.RefTerms
import proofs.«124716_j10282151706797_2_alg».proof.Proof.LibEdgeWeight

noncomputable section

namespace Cert.ReferenceIdeal.Bridge

open Cert.ReferenceIdeal Idealize.ShloMosaic Idealize.ShloMosaic.ValueIdx Cert.Lib.EdgeWeight

variable [Cert.ReferenceIdeal.Facts]

/-- Every entry of the inverse square-root degree vector is a real number: it is `1 / √(max deg 1)` where the degree
    is positive and `0` elsewhere. -/
theorem dinv_real (x1 : IVec S2x500000 32) (i : S100000.Idx) :
    ∃ r : ℝ, RefValue.dinv (F := Ideal) x1 i = (r : EReal) := by
  unfold RefValue.dinv
  exact inv_sqrt_deg_real _ _ _ _ (fun j => splat_apply _ .f32 _ j)
    (fun j => ⟨0, (splat_zero_apply _ j).trans EReal.coe_zero.symm⟩) i

/-- Every edge weight is a real number: it is the product of two entries of the inverse square-root degree vector, the
    one at the edge's source and the one at its destination. -/
theorem norm_real (x1 : IVec S2x500000 32) (e : S600000.Idx) :
    ∃ r : ℝ, RefValue.norm (F := Ideal) x1 e = (r : EReal) := by
  obtain ⟨i, hi⟩ := gather_entry gather_S100000_S600000x1_S600000_n_0_n_n_0_1_1 (RefValue.dinv (F := Ideal) x1)
    (RefValue.wrapCol (F := Ideal) (RefValue.srcIdx (F := Ideal) x1)) e
  obtain ⟨j, hj⟩ := gather_entry gather_S100000_S600000x1_S600000_n_0_n_n_0_1_1 (RefValue.dinv (F := Ideal) x1)
    (RefValue.wrapCol (F := Ideal) (RefValue.dstIdx (F := Ideal) x1)) e
  obtain ⟨a, ha⟩ := dinv_real x1 i
  obtain ⟨b, hb⟩ := dinv_real x1 j
  refine ⟨a * b, ?_⟩
  unfold RefValue.norm
  exact (congrArg₂ (· * ·) (hi.trans ha) (hj.trans hb)).trans (EReal.coe_mul a b).symm

end Cert.ReferenceIdeal.Bridge

end
-- ==== Proof.Finite.lean ====
import proofs.«124716_j10282151706797_2_alg».proof.Pre_finite_inputs
import Idealize.ShloMosaic.Lib.ReduceAll
import Idealize.ShloMosaic.Lib.ValueIdx

noncomputable section

namespace Cert.Finite

open Idealize.ShloMosaic Cert.Pre_finite_inputs

/-- The scalar shape has one index. -/
instance subsingleton_scalar_idx : Subsingleton S_.Idx := ⟨fun a b => funext fun d => d.elim0⟩

/-- The f32 word `0x7F800000` is `+∞`. -/
theorem ofBits_inf_f32 : Ideal.ofBits .f32 0x7F800000#32 = (⊤ : EReal) := by simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- The precondition is the conjunction of five "every entry is below `+∞` in absolute value" tests; its first two
    conjuncts say that every entry of the first and of the third argument is a real number. -/
theorem x_w1_real [Cert.Pre_finite_inputs.Facts] (x0 : FVec Ideal Cert.Pre_finite_inputs.S100000x128 .f32)
    (x1 : IVec Cert.Pre_finite_inputs.S2x500000 32) (x2 : FVec Ideal Cert.Pre_finite_inputs.S128x256 .f32)
    (x3 : FVec Ideal Cert.Pre_finite_inputs.S256 .f32) (x4 : FVec Ideal Cert.Pre_finite_inputs.S256x64 .f32)
    (x5 : FVec Ideal Cert.Pre_finite_inputs.S64 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) := by
  have e := congrFun h ValueIdx.ix0
  obtain ⟨e18, -⟩ := IntOp.andi_eq_one.1 e
  obtain ⟨e13, -⟩ := IntOp.andi_eq_one.1 e18
  obtain ⟨e8, -⟩ := IntOp.andi_eq_one.1 e13
  obtain ⟨e3, e7⟩ := IntOp.andi_eq_one.1 e8
  exact ⟨fun i => real_of_abs_lt_inf _ (Host.reduce_andi_all _ _ _ _ _ e3 i),
    fun i => real_of_abs_lt_inf _ (Host.reduce_andi_all _ _ _ _ _ e7 i)⟩

/-- Under the precondition every entry of the first argument is a real number. -/
theorem x_real [Cert.Pre_finite_inputs.Facts] (x0 : FVec Ideal Cert.Pre_finite_inputs.S100000x128 .f32)
    (x1 : IVec Cert.Pre_finite_inputs.S2x500000 32) (x2 : FVec Ideal Cert.Pre_finite_inputs.S128x256 .f32)
    (x3 : FVec Ideal Cert.Pre_finite_inputs.S256 .f32) (x4 : FVec Ideal Cert.Pre_finite_inputs.S256x64 .f32)
    (x5 : FVec Ideal Cert.Pre_finite_inputs.S64 .f32)
    (h : Cert.Pre_finite_inputs.fn (F := Ideal) x0 x1 x2 x3 x4 x5 = fun _ => 1#1) : ∀ i, ∃ r : ℝ, x0 i = (r : EReal) :=
  (x_w1_real x0 x1 x2 x3 x4 x5 h).1

/-- Under the precondition every entry of the third argument is a real number. -/
theorem w1_real [Cert.Pre_finite_inputs.Facts] (x0 : FVec Ideal Cert.Pre_finite_inputs.S100000x128 .f32)
    (x1 : IVec Cert.Pre_finite_inputs.S2x500000 32) (x2 : FVec Ideal Cert.Pre_finite_inputs.S128x256 .f32)
    (x3 : FVec Ideal Cert.Pre_finite_inputs.S256 .f32) (x4 : FVec Ideal Cert.Pre_finite_inputs.S256x64 .f32)
    (x5 : FVec Ideal Cert.Pre_finite_inputs.S64 .f32)
    (h : Cert.Pre_finite_inputs.fn (F := Ideal) x0 x1 x2 x3 x4 x5 = fun _ => 1#1) : ∀ i, ∃ r : ℝ, x2 i = (r : EReal) :=
  (x_w1_real x0 x1 x2 x3 x4 x5 h).2

end Cert.Finite

end
-- ==== Proof.Claims.lean ====
/-
  The certificate's five claims. Both idealized programs end, from memories that agree on the arguments, at the same
  array: the kernel program's result is its second aggregation of the two-layer projection of the aggregated features,
  the reference's is its second aggregation of its own projection, and the two projections are one function of the
  arguments (the segment sum exchanges with the product by the first weight matrix, the entries being real under the
  precondition).
-/
import proofs.«124716_j10282151706797_2_alg».proof.Defs
import proofs.«124716_j10282151706797_2_alg».proof.Proof.Gen.Kernel
import proofs.«124716_j10282151706797_2_alg».proof.Proof.Gen.KernelIdeal
import proofs.«124716_j10282151706797_2_alg».proof.Proof.Gen.ReferenceIdeal
import proofs.«124716_j10282151706797_2_alg».proof.Proof.Gen.Pre_finite_inputs
import proofs.«124716_j10282151706797_2_alg».proof.Proof.Gen.Kernel.Frame
import proofs.«124716_j10282151706797_2_alg».proof.Proof.Gen.KernelIdeal.Frame
import proofs.«124716_j10282151706797_2_alg».proof.Proof.KernelRun
import proofs.«124716_j10282151706797_2_alg».proof.Proof.RefRun
import proofs.«124716_j10282151706797_2_alg».proof.Proof.Bridge
import proofs.«124716_j10282151706797_2_alg».proof.Proof.RefNormReal
import proofs.«124716_j10282151706797_2_alg».proof.Proof.Finite

noncomputable section

namespace Cert.Proof.Claims

open Idealize.ShloMosaic Idealize.ShloMosaic.TcCoe Idealize.SL.Sem

/-! ## The frames and the idealization -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote no operation: there is nothing to preserve. -/
theorem preserves : Cert.preserves_Kernel_KernelIdeal := trivial

/-! ## The two results are one array -/

/-- Given the kernel program's run read as a term of the arguments — the second aggregation of the two-layer
    projection of the aggregated features, plus the last bias — and that every edge weight is a real number, both
    programs end at the reference's result term of the kernel memory's arguments: the kernel's by the bridge between
    the two projections (the features and the first weight matrix are real under the precondition) and the programs'
    common ending, the reference's by its own run from a memory that agrees on the arguments. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ fun r => ∀ c : Dev Cert.KernelIdeal.nD,
        r.2.mem ((c.tc : Thread Cert.KernelIdeal.nD Cert.KernelIdeal.τ).loc Cert.KernelIdeal.main_v63)
          = Cert.KernelIdeal.Host.tail (F := Ideal) (Cert.KernelIdeal.Blocks.fused (Cert.KernelIdeal.Host.agg (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2))
              (Cert.KernelIdeal.Host.biasRow (F := Ideal) (m ((c.tc : Thread Cert.KernelIdeal.nD Cert.KernelIdeal.τ).loc Cert.KernelIdeal.main_arg3))) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
    (hν : ∀ (x1 : IVec Cert.ReferenceIdeal.S2x500000 32) (e : Cert.ReferenceIdeal.S600000.Idx), ∃ r : ℝ, Cert.ReferenceIdeal.RefValue.norm (F := Ideal) x1 e = (r : EReal)) :
    Cert.algebraic_KernelIdeal_ReferenceIdeal := by
  intro m ρ m' ρ' hpre hagree
  refine ⟨fun c => Cert.ReferenceIdeal.RefValue.res (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩) (hrun m ρ)
    rw [Cert.Bridge.fused_eq_proj _ _ _ _ _ (Cert.Finite.x_real _ _ _ _ _ _ (hpre c))
      (Cert.Finite.w1_real _ _ _ _ _ _ (hpre c)) (hν _)]
    exact Cert.Bridge.tail_eq_res ..
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]

/-- At the ideal instance the kernel program and the reference, from memories that agree on the arguments, both run
    and end with equal results and unchanged arguments. -/
theorem algebraic : Cert.algebraic_KernelIdeal_ReferenceIdeal :=
  algebraic_of (fun m ρ => Cert.KernelIdeal.Run.run m ρ) (fun x1 e => Cert.ReferenceIdeal.Bridge.norm_real x1 e)

end Cert.Proof.Claims

end
-- ==== Proof.lean ====
/-
  Two programs for a two-layer graph convolution over 100000 nodes and 600000 edges (500000 given, one self loop per
  node): with E_n the edges into node n and norm[e] = dinv[src e]·dinv[dst e], dinv = 1/sqrt(max(deg, 1)) where the
  degree is positive and 0 elsewhere,

    reference:  h[n, ·] = max(Σ_{e ∈ E_n} (x·W1)[src e, ·]·norm[e] + b1, 0),   out[n, ·] = Σ_{e ∈ E_n} (h·W2)[src e, ·]·norm[e] + b2;
    kernel:     a[n, ·] = Σ_{e ∈ E_n} x[src e, ·]·norm[e]   (aggregate first, at width 128),
                p = max(a·W1 + b1, 0)·W2   (one fused kernel over 20 blocks of 5000 rows),   out as above from p.

  At the extended reals both are one function of the arguments. The one law that joins them is linearity of the
  segment sum under a right product,  Σ_{e ∈ E_n} (Σ_k x[src e, k]·W1[k, j])·norm[e] = Σ_k (Σ_{e ∈ E_n} x[src e, k]·norm[e])·W1[k, j],
  which is distributivity and an exchange of finite sums: it needs every factor to be a real number. The features and
  the first weight are real by the precondition; an edge weight is real by construction (a product of two values of
  1/sqrt(max(·, 1)) or 0). The gather clamps its row index and the scatter drops an update whose index is out of range;
  both programs read the same index lists the same way, so no condition on the edge table is needed. Everything after
  the projection (the second aggregation and the last bias) is the same text in both programs.

  The modules: KernelTerms / KernelHost (the kernel program's host operations as terms, read off its run), KernelPayload
  / Fused / KernelBlocks (the kernel body at an index; from blocks to the whole array), KernelRun (the kernel program's
  result as one term), RefTerms / RefRun (the reference's result as one term, and its run), RefSeg / RefDots / RefProj /
  RefSegLinear / RefNormReal (the reference's projection at an index; the linearity step; the weights are real), Finite
  (the precondition read), Bridge (the two projections are equal; the common ending), Claims (the five conjuncts).
-/
import proofs.«124716_j10282151706797_2_alg».proof.Defs
import proofs.«124716_j10282151706797_2_alg».proof.Proof.Gen.Kernel
import proofs.«124716_j10282151706797_2_alg».proof.Proof.Gen.KernelIdeal
import proofs.«124716_j10282151706797_2_alg».proof.Proof.Gen.ReferenceIdeal
import proofs.«124716_j10282151706797_2_alg».proof.Proof.Gen.Pre_finite_inputs
import proofs.«124716_j10282151706797_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
